-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x800000 : Shape := ⟨2, ![2, 800000]⟩
abbrev S32x256 : Shape := ⟨2, ![32, 256]⟩
abbrev S256 : Shape := ⟨1, ![256]⟩
abbrev S256x6 : Shape := ⟨2, ![256, 6]⟩
abbrev S6 : Shape := ⟨1, ![6]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S256x6 : S_.BroadcastsInDim S256x6 (![] : Fin 0 → Fin S256x6.rank)
  reducesTo_S256x6_S_d0_1 : S256x6.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg5 : FVec F S6 .f32) (main_v13 : IVec S_ 1) (main_v16 : IVec S256x6 1) : IVec S_ 1 :=
  let main_c_5 : IVec S_ 1 := constantI S_ 1 1#1
  let main_v17 : IVec S_ 1 := (fun x v => Host.reduce IntOp.andi x v reducesTo_S256x6_S_d0_1 h_S_) main_v16 main_c_5
  let main_v18 : IVec S_ 1 := andi main_v13 main_v17
  let main_v19 : FVec F S6 .f32 := Host.absf main_arg5
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  main_v23

def fn {F : FTy → Type} [FloatOps F] (main_arg0 : FVec F S50000x32 .f32) (main_arg1 : IVec S2x800000 32) (main_arg2 : FVec F S32x256 .f32) (main_arg3 : FVec F S256 .f32) (main_arg4 : FVec F S256x6 .f32) (main_arg5 : FVec F S6 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S32x256 .f32 := Host.absf main_arg2
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x6 .f32 := Host.absf main_arg4
  let main_cst_4 : FVec F S_ .f32 := constant S_ .f32 0x7F800000#32
  let main_v15 : FVec F S256x6 .f32 := broadcastInDim S256x6 ![] bcast_S_S256x6 main_cst_4
  let main_v16 : IVec S256x6 1 := cmpf .olt main_v14 main_v15
  fn_part1 (F := F) main_arg5 main_v13 main_v16
-- ==== Kernel.lean ====
abbrev S50000x32 : Shape := ⟨2, ![50000, 32]⟩
abbrev S2x800000 : Shape := ⟨2, ![2, 800000]⟩
abbrev S32x256 : Shape := ⟨2, ![32, 256]⟩
abbrev S256 : Shape := ⟨1, ![256]⟩
abbrev S256x6 : Shape := ⟨2, ![256, 6]⟩
abbrev S6 : Shape := ⟨1, ![6]⟩
abbrev S1x800000 : Shape := ⟨2, ![1, 800000]⟩
abbrev S800000 : Shape := ⟨1, ![800000]⟩
abbrev S50000x256 : Shape := ⟨2, ![50000, 256]⟩
abbrev S5000x32 : Shape := ⟨2, ![5000, 32]⟩
abbrev S5000x256 : Shape := ⟨2, ![5000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S5000x1 : Shape := ⟨2, ![5000, 1]⟩
abbrev S1x256 : Shape := ⟨2, ![1, 256]⟩
abbrev S50000x6 : Shape := ⟨2, ![50000, 6]⟩
abbrev S5000x6 : Shape := ⟨2, ![5000, 6]⟩
abbrev S850000x6 : Shape := ⟨2, ![850000, 6]⟩
abbrev S1x6 : Shape := ⟨2, ![1, 6]⟩

abbrev nBuf : Space → Nat
  | .hbm => 118
  | .vmem => 32
  | .smem => 0
  | _ => 0

abbrev bufTy : (tb : Table) → Fin (tcTables nBuf tb) → BufTy
  | .hbm, ⟨0, _⟩ => ⟨S50000x32, .f32⟩
  | .hbm, ⟨1, _⟩ => ⟨S2x800000, .i32⟩
  | .hbm, ⟨2, _⟩ => ⟨S32x256, .f32⟩
  | .hbm, ⟨3, _⟩ => ⟨S256, .f32⟩
  | .hbm, ⟨4, _⟩ => ⟨S256x6, .f32⟩
  | .hbm, ⟨5, _⟩ => ⟨S6, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S_, .f32⟩
  | .hbm, ⟨59, _⟩ => ⟨S50000x256, .f32⟩
  | .hbm, ⟨60, _⟩ => ⟨S850000x1, .i32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x6, .f32⟩
  | .hbm, ⟨65, _⟩ => ⟨S50000, .i32⟩
  | .hbm, ⟨66, _⟩ => ⟨S850000, .i32⟩
  | .hbm, ⟨67, _⟩ => ⟨S850000, .i32⟩
  | .hbm, ⟨68, _⟩ => ⟨S_, .f32⟩
  | .hbm, ⟨69, _⟩ => ⟨S850000, .f32⟩
  | .hbm, ⟨70, _⟩ => ⟨S_, .f32⟩
  | .hbm, ⟨71, _⟩ => ⟨S50000, .f32⟩
  | .hbm, ⟨72, _⟩ => ⟨S850000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .i1⟩
  | .hbm, ⟨77, _⟩ => ⟨S50000, .f32⟩
  | .hbm, ⟨78, _⟩ => ⟨S_, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000, .f32⟩
  | .hbm, ⟨100, _⟩ => ⟨S850000, .f32⟩
  | .hbm, ⟨101, _⟩ => ⟨S_, .i32⟩
  | .hbm, ⟨102, _⟩ => ⟨S850000, .i32⟩
  | .hbm, ⟨103, _⟩ => ⟨S850000, .i1⟩
  | .hbm, ⟨104, _⟩ => ⟨S_, .i32⟩
  | .hbm, ⟨105, _⟩ => ⟨S850000, .i32⟩
  | .hbm, ⟨106, _⟩ => ⟨S850000, .i32⟩
  | .hbm, ⟨107, _⟩ => ⟨S850000, .i32⟩
  | .hbm, ⟨108, _⟩ => ⟨S850000x1, .i32⟩
  | .hbm, ⟨109, _⟩ => ⟨S850000x6, .f32⟩
  | .hbm, ⟨110, _⟩ => ⟨S850000x1, .f32⟩
  | .hbm, ⟨111, _⟩ => ⟨S850000x6, .f32⟩
  | .hbm, ⟨112, _⟩ => ⟨S_, .f32⟩
  | .hbm, ⟨113, _⟩ => ⟨S50000x6, .f32⟩
  | .hbm, ⟨114, _⟩ => ⟨S850000x1, .i32⟩
  | .hbm, ⟨115, _⟩ => ⟨S50000x6, .f32⟩
  | .hbm, ⟨116, _⟩ => ⟨S1x6, .f32⟩
  | .hbm, ⟨117, _⟩ => ⟨S50000x6, .f32⟩
  | .local _ .vmem, ⟨0, _⟩ => ⟨S5000x32, .f32⟩
  | .local _ .vmem, ⟨1, _⟩ => ⟨S5000x32, .f32⟩
  | .local _ .vmem, ⟨2, _⟩ => ⟨S32x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x1, .f32⟩
  | .local _ .vmem, ⟨8, _⟩ => ⟨S5000x1, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S1x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S256x6, .f32⟩
  | .local _ .vmem, ⟨19, _⟩ => ⟨S5000x6, .f32⟩
  | .local _ .vmem, ⟨20, _⟩ => ⟨S5000x6, .f32⟩
  | .local _ .vmem, ⟨21, _⟩ => ⟨S5000x6, .f32⟩
  | .local _ .vmem, ⟨22, _⟩ => ⟨S5000x6, .f32⟩
  | .local _ .vmem, ⟨23, _⟩ => ⟨S5000x1, .f32⟩
  | .local _ .vmem, ⟨24, _⟩ => ⟨S5000x1, .f32⟩
  | .local _ .vmem, ⟨25, _⟩ => ⟨S5000x6, .f32⟩
  | .local _ .vmem, ⟨26, _⟩ => ⟨S5000x6, .f32⟩
  | .local _ .vmem, ⟨27, _⟩ => ⟨S5000x6, .f32⟩
  | .local _ .vmem, ⟨28, _⟩ => ⟨S5000x6, .f32⟩
  | .local _ .vmem, ⟨29, _⟩ => ⟨S1x6, .f32⟩
  | .local _ .vmem, ⟨30, _⟩ => ⟨S5000x6, .f32⟩
  | .local _ .vmem, ⟨31, _⟩ => ⟨S5000x6, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_call1_v0 : Ref sig .tc := ⟨.hbm, 79, rfl⟩
abbrev main_call1_v1 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_c_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_c_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_c_18 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_19 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x6 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x6 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x6 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x6 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x6 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x6 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x6 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x256_S32x256_0_0 : ∀ a, (![0, 0] : Fin 2 → Nat) a + S32x256.size a ≤ S32x256.size a
  h_S32x256 : 0 < S32x256.numel
  inb_S5000x256_S5000x256_0_0 : ∀ a, (![0, 0] : Fin 2 → Nat) a + S5000x256.size a ≤ S5000x256.size a
  h_S5000x256 : 0 < S5000x256.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S850000_S850000x1 : S850000.ShapeCasts S850000x1
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x6_S256x6_0_0 : ∀ a, (![0, 0] : Fin 2 → Nat) a + S256x6.size a ≤ S256x6.size a
  h_S256x6 : 0 < S256x6.numel
  inb_S5000x6_S5000x6_0_0 : ∀ a, (![0, 0] : Fin 2 → Nat) a + S5000x6.size a ≤ S5000x6.size a
  h_S5000x6 : 0 < S5000x6.numel
  shapeCasts_S5000x6_S5000x6 : S5000x6.ShapeCasts S5000x6
  broadcasts_S5000x1_S5000x6 : S5000x1.Broadcasts S5000x6
  bcast_S_S50000x6 : S_.BroadcastsInDim S50000x6 (![] : Fin 0 → Fin S50000x6.rank)
  shapeCasts_S6_S1x6 : S6.ShapeCasts S1x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S5000x6 : S1x6.Broadcasts S5000x6
  dot_S5000x32_S32x256_S5000x256_1_0_0_1_n_n_wf : DotDims.WF S5000x32 S32x256 S5000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x6_S5000x6_1_0_0_1_n_n_wf : DotDims.WF S5000x256 S256x6 S5000x6 [1] [0] [0] [1] [] []
  gather_S50000x6_S850000x1_S850000x6_1_0_n_n_0_1_16_wf : GatherDims.WF S50000x6 S850000x1 S850000x6 [1] [0] [] [0] [] 1 ![1, 6]
  scatter_S50000x6_S850000x1_S850000x6_1_0_0_1_wf : ScatterDims.WF S50000x6 S850000x1 S850000x6 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S850000x256.size a
  hwx1_0 : ∀ i : grid1.Coords, EltTy.bits .f32 = 32 ∨ (Rect.block (s := S850000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S850000x1.size a
  hwx1_1 : ∀ i : grid1.Coords, EltTy.bits .f32 = 32 ∨ (Rect.block (s := S850000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S850000x256.size a
  hwx1_2 : ∀ i : grid1.Coords, EltTy.bits .f32 = 32 ∨ (Rect.block (s := S850000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x6.size a ≤ S256x6.size a
  hwx3_1 : ∀ i : grid3.Coords, EltTy.bits .f32 = 32 ∨ (Rect.block (s := S256x6) S256x6.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x6.size a ≤ S50000x6.size a
  hwx3_2 : ∀ i : grid3.Coords, EltTy.bits .f32 = 32 ∨ (Rect.block (s := S50000x6) S5000x6.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x6.size a ≤ S850000x6.size a
  hwx4_0 : ∀ i : grid4.Coords, EltTy.bits .f32 = 32 ∨ (Rect.block (s := S850000x6) S5000x6.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S850000x1.size a
  hwx4_1 : ∀ i : grid4.Coords, EltTy.bits .f32 = 32 ∨ (Rect.block (s := S850000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x6.size a ≤ S850000x6.size a
  hwx4_2 : ∀ i : grid4.Coords, EltTy.bits .f32 = 32 ∨ (Rect.block (s := S850000x6) S5000x6.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x6.size a ≤ S50000x6.size a
  hwx5_0 : ∀ i : grid5.Coords, EltTy.bits .f32 = 32 ∨ (Rect.block (s := S50000x6) S5000x6.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x6.size a ≤ S1x6.size a
  hwx5_1 : ∀ i : grid5.Coords, EltTy.bits .f32 = 32 ∨ (Rect.block (s := S1x6) S1x6.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x6.size a ≤ S50000x6.size a
  hwx5_2 : ∀ i : grid5.Coords, EltTy.bits .f32 = 32 ∨ (Rect.block (s := S50000x6) S5000x6.size (cc5_transform_2 i) (hinb5_2 i)).WholeWords (EltTy.packing .f32)

variable [Facts₀]

def dot_S5000x32_S32x256_S5000x256_1_0_0_1_n_n : DotDims S5000x32 S32x256 S5000x256 where
  lhsContracting := [1]
  rhsContracting := [0]
  lhsNonContracting := [0]
  rhsNonContracting := [1]
  lhsBatch := []
  rhsBatch := []
  wf := dot_S5000x32_S32x256_S5000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x6_S5000x6_1_0_0_1_n_n : DotDims S5000x256 S256x6 S5000x6 where
  lhsContracting := [1]
  rhsContracting := [0]
  lhsNonContracting := [0]
  rhsNonContracting := [1]
  lhsBatch := []
  rhsBatch := []
  wf := dot_S5000x256_S256x6_S5000x6_1_0_0_1_n_n_wf
def gather_S50000x6_S850000x1_S850000x6_1_0_n_n_0_1_16 : GatherDims S50000x6 S850000x1 S850000x6 where
  offsetDims := [1]
  collapsedSliceDims := [0]
  operandBatchingDims := []
  startIndicesBatchingDims := []
  startIndexMap := [0]
  indexVectorDim := 1
  sliceSizes := ![1, 6]
  wf := gather_S50000x6_S850000x1_S850000x6_1_0_n_n_0_1_16_wf
def scatter_S50000x6_S850000x1_S850000x6_1_0_0_1 : ScatterDims S50000x6 S850000x1 S850000x6 where
  updateWindowDims := [1]
  insertedWindowDims := [0]
  scatterDimsToOperandDims := [0]
  indexVectorDim := 1
  wf := scatter_S50000x6_S850000x1_S850000x6_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S256x6.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x6.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v78) S5000x6.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S5000x6.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S5000x6.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x6.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S5000x6.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x32 : Shape := ⟨2, ![50000, 32]⟩
abbrev S2x800000 : Shape := ⟨2, ![2, 800000]⟩
abbrev S32x256 : Shape := ⟨2, ![32, 256]⟩
abbrev S256 : Shape := ⟨1, ![256]⟩
abbrev S256x6 : Shape := ⟨2, ![256, 6]⟩
abbrev S6 : Shape := ⟨1, ![6]⟩
abbrev S1x800000 : Shape := ⟨2, ![1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x6 : Shape := ⟨2, ![50000, 6]⟩
abbrev S850000x6 : Shape := ⟨2, ![850000, 6]⟩
abbrev S1x6 : Shape := ⟨2, ![1, 6]⟩

abbrev nBuf : Space → Nat
  | .hbm => 125
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S2x800000, .i32⟩
  | .hbm, ⟨2, _⟩ => ⟨S32x256, .f32⟩
  | .hbm, ⟨3, _⟩ => ⟨S256, .f32⟩
  | .hbm, ⟨4, _⟩ => ⟨S256x6, .f32⟩
  | .hbm, ⟨5, _⟩ => ⟨S6, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x6, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x6, .f32⟩
  | .hbm, ⟨115, _⟩ => ⟨S850000x1, .f32⟩
  | .hbm, ⟨116, _⟩ => ⟨S850000x6, .f32⟩
  | .hbm, ⟨117, _⟩ => ⟨S850000x6, .f32⟩
  | .hbm, ⟨118, _⟩ => ⟨S_, .f32⟩
  | .hbm, ⟨119, _⟩ => ⟨S50000x6, .f32⟩
  | .hbm, ⟨120, _⟩ => ⟨S850000x1, .i32⟩
  | .hbm, ⟨121, _⟩ => ⟨S50000x6, .f32⟩
  | .hbm, ⟨122, _⟩ => ⟨S1x6, .f32⟩
  | .hbm, ⟨123, _⟩ => ⟨S50000x6, .f32⟩
  | .hbm, ⟨124, _⟩ => ⟨S50000x6, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x6_0_1 : S850000x1.BroadcastsInDim S850000x6 (![0, 1] : Fin 2 → Fin S850000x6.rank)
  bcast_S_S50000x6 : S_.BroadcastsInDim S50000x6 (![] : Fin 0 → Fin S50000x6.rank)
  bcast_S6_S1x6_1 : S6.BroadcastsInDim S1x6 (![1] : Fin 1 → Fin S1x6.rank)
  bcast_S1x6_S50000x6_0_1 : S1x6.BroadcastsInDim S50000x6 (![0, 1] : Fin 2 → Fin S50000x6.rank)
  dot_S50000x32_S32x256_S50000x256_1_0_0_1_n_n_wf : DotDims.WF S50000x32 S32x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x6_S50000x6_1_0_0_1_n_n_wf : DotDims.WF S50000x256 S256x6 S50000x6 [1] [0] [0] [1] [] []
  gather_S50000x6_S850000x1_S850000x6_1_0_n_n_0_1_16_wf : GatherDims.WF S50000x6 S850000x1 S850000x6 [1] [0] [] [0] [] 1 ![1, 6]
  scatter_S50000x6_S850000x1_S850000x6_1_0_0_1_wf : ScatterDims.WF S50000x6 S850000x1 S850000x6 [1] [0] [0] 1

variable [Facts₀]

def dot_S50000x32_S32x256_S50000x256_1_0_0_1_n_n : DotDims S50000x32 S32x256 S50000x256 where
  lhsContracting := [1]
  rhsContracting := [0]
  lhsNonContracting := [0]
  rhsNonContracting := [1]
  lhsBatch := []
  rhsBatch := []
  wf := dot_S50000x32_S32x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x6_S50000x6_1_0_0_1_n_n : DotDims S50000x256 S256x6 S50000x6 where
  lhsContracting := [1]
  rhsContracting := [0]
  lhsNonContracting := [0]
  rhsNonContracting := [1]
  lhsBatch := []
  rhsBatch := []
  wf := dot_S50000x256_S256x6_S50000x6_1_0_0_1_n_n_wf
def gather_S50000x6_S850000x1_S850000x6_1_0_n_n_0_1_16 : GatherDims S50000x6 S850000x1 S850000x6 where
  offsetDims := [1]
  collapsedSliceDims := [0]
  operandBatchingDims := []
  startIndicesBatchingDims := []
  startIndexMap := [0]
  indexVectorDim := 1
  sliceSizes := ![1, 6]
  wf := gather_S50000x6_S850000x1_S850000x6_1_0_n_n_0_1_16_wf
def scatter_S50000x6_S850000x1_S850000x6_1_0_0_1 : ScatterDims S50000x6 S850000x1 S850000x6 where
  updateWindowDims := [1]
  insertedWindowDims := [0]
  scatterDimsToOperandDims := [0]
  indexVectorDim := 1
  wf := scatter_S50000x6_S850000x1_S850000x6_1_0_0_1_wf

class Facts : Prop extends Facts₀ where

variable [Facts]
-- ==== Proof.NamedRun.lean ====
/-
  The kernel program's run with its result named.

  The generated frame launches @main's fifteen segments (nine stretches of host operations, six kernel launches)
  and, at the end, knows every buffer at the contents of the last segment boundary — but states only that the six
  argument arrays end as launched.  Read against the same final state, the result buffer holds the last
  boundary's contents of that buffer; this is the statement a value proof starts from.
-/
import proofs.«165991_j7730941133132_1_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the six argument arrays as launched. -/
theorem run : θ_run defs (onTc (τ := τ) (main (F := F))) ⟨m, fun _ => 0, ρ⟩ (fun r => ∀ c : Dev nD,
      r.2.mem ((c.tc : Thread nD τ).loc main_v85) = W15 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v85 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c)⟩)

end Cert.KernelIdeal.NamedRun

end
-- ==== Proof.LibColumnForms.lean ====
/-
  Column and row forms of small layout operations, read at an index, for any extents.

  * a [a,1] column broadcast along the second axis to [a,b] reads the column's entry of the same row;
  * a vector [a] reshaped to a column [a,1], and the same vector placed as a column by a broadcast in
    dimension 0, are one array: entry (p, 0) is the vector's entry p;
  * a vector [a] reshaped to a row [1,a], and the same vector placed as a row by a broadcast in dimension 1,
    are one array: entry (0, p) is the vector's entry p.
  The two "are one array" statements are what joins a program that reshapes a vector before handing it to a
  kernel with a program that broadcasts it on the host.
-/
import Idealize.ShloMosaic.Lib.ValueIdx
import Idealize.ShloMosaic.Lib.ValueLayout
import Idealize.ShloMosaic.Lib.Pipeline.Value

namespace ColumnForms

open Idealize.ShloMosaic Idealize.ShloMosaic.ValueIdx

variable {α : Type}

/-- A [a,1] column broadcast to [a,b] reads, at (p, q), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] reshaped to a column [a,1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector [a] broadcast in dimension 0 to a column [a,1] reads, at (p, u), the vector at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x (ix2 p u) (ix1 p) (fun ax => match ax with
    | ⟨0, _⟩ => by
      show p.val = if a = 1 then 0 else p.val
      split
      · have := p.isLt; omega
      · rfl)

/-- The reshape of a vector to a column is its broadcast in dimension 0 to that column. -/
theorem shapeCast_a_a1_eq_broadcastInDim {a : ℕ} (x : (⟨1, ![a]⟩ : Shape).Idx → α) (h : (⟨1, ![a]⟩ : Shape).ShapeCasts ⟨2, ![a, 1]⟩)
    (h' : (⟨1, ![a]⟩ : Shape).BroadcastsInDim ⟨2, ![a, 1]⟩ ![0]) :
    shapeCast ⟨2, ![a, 1]⟩ x h = broadcastInDim ⟨2, ![a, 1]⟩ ![0] h' x := by
  funext j
  obtain ⟨p, u, rfl⟩ : ∃ (p : Fin a) (u : Fin 1), j = ix2 p u := ⟨j 0, j 1, eq_ix2 j⟩
  rw [shapeCast_a_a1_apply, broadcastInDim_a_a1_apply]

/-- A vector [a] broadcast in dimension 1 to a row [1,a] reads, at (u, p), the vector at p. -/
theorem broadcastInDim_a_1a_apply {a : ℕ} (x : (⟨1, ![a]⟩ : Shape).Idx → α)
    (h : (⟨1, ![a]⟩ : Shape).BroadcastsInDim ⟨2, ![1, a]⟩ ![1]) (u : Fin 1) (p : Fin a) :
    broadcastInDim ⟨2, ![1, a]⟩ ![1] h x (ix2 u p) = x (ix1 p) :=
  broadcastInDim_apply _ h x (ix2 u p) (ix1 p) (fun ax => match ax with
    | ⟨0, _⟩ => by
      show p.val = if a = 1 then 0 else p.val
      split
      · have := p.isLt; omega
      · rfl)

/-- The reshape of a vector to a row is its broadcast in dimension 1 to that row. -/
theorem shapeCast_a_1a_eq_broadcastInDim {a : ℕ} (x : (⟨1, ![a]⟩ : Shape).Idx → α) (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, p, rfl⟩ : ∃ (u : Fin 1) (p : Fin a), j = ix2 u p := ⟨j 0, j 1, eq_ix2 j⟩
  rw [shapeCast_a_1a_apply, broadcastInDim_a_1a_apply]

end ColumnForms
-- ==== Proof.Payloads.lean ====
/-
  The six kernel bodies' stored values, read at an index, as exact arithmetic on the extended reals.

  Each body loads two blocks and stores one value built from them:
    * the two products: the [5000,K] block times the whole [K,N] weight into a zero accumulator, with both
      operands first narrowed to bf16 — on the extended reals narrowing is the identity and the product into
      zero is the plain sum  Σ_k x[p,k] · w[k,q];
    * the two scalings: a [5000,N] block times a [5000,1] column spread along the lanes: x[p,q] · n[p,0];
    * the two bias steps: a [5000,N] block plus a [1,N] row spread along the rows, x[p,q] + b[0,q], the first
      of them followed by the maximum with zero.
  Every statement is over variables of the literal block types and coordinates of literal extents.
-/
import proofs.«165991_j7730941133132_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«165991_j7730941133132_1_alg».proof.Proof.LibColumnForms

noncomputable section

namespace Cert.KernelIdeal.Payload

open Idealize.ShloMosaic Idealize.ShloMosaic.ValueIdx Cert.KernelIdeal Cert.KernelIdeal.Gen ColumnForms

/-! ## The two products -/

abbrev dotA := dot_S5000x32_S32x256_S5000x256_1_0_0_1_n_n
abbrev dotB := dot_S5000x256_S256x6_S5000x6_1_0_0_1_n_n

theorem dotA_lhs0 (i : S5000x256.Idx) (q : dotA.contr.Idx) : (dotA.lhsIdx i q 0).val = (i 0).val := by
  unfold DotDims.lhsIdx
  rw [dif_neg (show ¬(0 : Fin S5000x32.rank) ∈ dotA.lhsBatch by decide), dif_pos (show (0 : Fin S5000x32.rank) ∈ dotA.lhsNonContracting by decide)]
  rfl
theorem dotA_lhs1 (i : S5000x256.Idx) (q : dotA.contr.Idx) : (dotA.lhsIdx i q 1).val = (q ⟨0, by decide⟩).val :=
  dotA.lhsIdx_val_of_single rfl i q
theorem dotA_rhs0 (i : S5000x256.Idx) (q : dotA.contr.Idx) : (dotA.rhsIdx i q 0).val = (q ⟨0, by decide⟩).val :=
  dotA.rhsIdx_val_of_single rfl i q
theorem dotA_rhs1 (i : S5000x256.Idx) (q : dotA.contr.Idx) : (dotA.rhsIdx i q 1).val = (i 1).val := by
  unfold DotDims.rhsIdx
  rw [dif_neg (show ¬(1 : Fin S32x256.rank) ∈ dotA.rhsBatch by decide), dif_pos (show (1 : Fin S32x256.rank) ∈ dotA.rhsNonContracting by decide)]
  rfl

/-- Entry (p, q) of the first product is the sum over the 32 contracted positions. -/
theorem prodA_apply (x : Vec Ideal S5000x32 .f32) (w : Vec Ideal S32x256 .f32) (p : Fin 5000) (q : Fin 256) :
    k0_pay1 (F := Ideal) x w (ix2 p q) = ∑ k : Fin 32, x (ix2 p k) * w (ix2 k q) := by
  unfold k0_pay1
  refine (Ideal.matmul_constant_zero_apply dotA none _ _ (ix2 p q)).trans ?_
  rw [← Equiv.sum_comp (contrEquiv1 dotA 32 rfl rfl).symm]
  refine Finset.sum_congr rfl fun k _ => ?_
  have hk := contrEquiv1_symm_val dotA 32 rfl rfl k
  have el : dotA.lhsIdx (ix2 p q) ((contrEquiv1 dotA 32 rfl rfl).symm k) = ix2 p k := funext fun a => Fin.ext (by
    match a with
    | ⟨0, _⟩ => exact dotA_lhs0 _ _
    | ⟨1, _⟩ => exact (dotA_lhs1 _ _).trans hk)
  have er : dotA.rhsIdx (ix2 p q) ((contrEquiv1 dotA 32 rfl rfl).symm k) = ix2 k q := funext fun a => Fin.ext (by
    match a with
    | ⟨0, _⟩ => exact (dotA_rhs0 _ _).trans hk
    | ⟨1, _⟩ => exact dotA_rhs1 _ _)
  show x (dotA.lhsIdx (ix2 p q) ((contrEquiv1 dotA 32 rfl rfl).symm k)) * w (dotA.rhsIdx (ix2 p q) ((contrEquiv1 dotA 32 rfl rfl).symm k)) = _
  rw [el, er]

theorem dotB_lhs0 (i : S5000x6.Idx) (q : dotB.contr.Idx) : (dotB.lhsIdx i q 0).val = (i 0).val := by
  unfold DotDims.lhsIdx
  rw [dif_neg (show ¬(0 : Fin S5000x256.rank) ∈ dotB.lhsBatch by decide), dif_pos (show (0 : Fin S5000x256.rank) ∈ dotB.lhsNonContracting by decide)]
  rfl
theorem dotB_lhs1 (i : S5000x6.Idx) (q : dotB.contr.Idx) : (dotB.lhsIdx i q 1).val = (q ⟨0, by decide⟩).val :=
  dotB.lhsIdx_val_of_single rfl i q
theorem dotB_rhs0 (i : S5000x6.Idx) (q : dotB.contr.Idx) : (dotB.rhsIdx i q 0).val = (q ⟨0, by decide⟩).val :=
  dotB.rhsIdx_val_of_single rfl i q
theorem dotB_rhs1 (i : S5000x6.Idx) (q : dotB.contr.Idx) : (dotB.rhsIdx i q 1).val = (i 1).val := by
  unfold DotDims.rhsIdx
  rw [dif_neg (show ¬(1 : Fin S256x6.rank) ∈ dotB.rhsBatch by decide), dif_pos (show (1 : Fin S256x6.rank) ∈ dotB.rhsNonContracting by decide)]
  rfl

/-- Entry (p, q) of the second product is the sum over the 256 contracted positions. -/
theorem prodB_apply (x : Vec Ideal S5000x256 .f32) (w : Vec Ideal S256x6 .f32) (p : Fin 5000) (q : Fin 6) :
    k3_pay1 (F := Ideal) x w (ix2 p q) = ∑ k : Fin 256, x (ix2 p k) * w (ix2 k q) := by
  unfold k3_pay1
  refine (Ideal.matmul_constant_zero_apply dotB none _ _ (ix2 p q)).trans ?_
  rw [← Equiv.sum_comp (contrEquiv1 dotB 256 rfl rfl).symm]
  refine Finset.sum_congr rfl fun k _ => ?_
  have hk := contrEquiv1_symm_val dotB 256 rfl rfl k
  have el : dotB.lhsIdx (ix2 p q) ((contrEquiv1 dotB 256 rfl rfl).symm k) = ix2 p k := funext fun a => Fin.ext (by
    match a with
    | ⟨0, _⟩ => exact dotB_lhs0 _ _
    | ⟨1, _⟩ => exact (dotB_lhs1 _ _).trans hk)
  have er : dotB.rhsIdx (ix2 p q) ((contrEquiv1 dotB 256 rfl rfl).symm k) = ix2 k q := funext fun a => Fin.ext (by
    match a with
    | ⟨0, _⟩ => exact (dotB_rhs0 _ _).trans hk
    | ⟨1, _⟩ => exact dotB_rhs1 _ _)
  show (shapeCast S5000x256 x shapeCasts_S5000x256_S5000x256) (dotB.lhsIdx (ix2 p q) ((contrEquiv1 dotB 256 rfl rfl).symm k)) * w (dotB.rhsIdx (ix2 p q) ((contrEquiv1 dotB 256 rfl rfl).symm k)) = _
  rw [shapeCast_self, el, er]

/-! ## The two scalings -/

theorem scaleA_apply (x : Vec Ideal S5000x256 .f32) (n : Vec Ideal S5000x1 .f32) (p : Fin 5000) (q : Fin 256) :
    k1_pay1 (F := Ideal) x n (ix2 p q) = x (ix2 p q) * n (ix2 p (0 : Fin 1)) := by
  unfold k1_pay1
  show (shapeCast S5000x256 x shapeCasts_S5000x256_S5000x256) (ix2 p q)
      * (broadcastTo S5000x256 (shapeCast S5000x1 n shapeCasts_S5000x1_S5000x1) broadcasts_S5000x1_S5000x256) (ix2 p q) = _
  rw [shapeCast_self, shapeCast_self, broadcastTo_a1_ab_apply]

theorem scaleB_apply (x : Vec Ideal S5000x6 .f32) (n : Vec Ideal S5000x1 .f32) (p : Fin 5000) (q : Fin 6) :
    k4_pay1 (F := Ideal) x n (ix2 p q) = x (ix2 p q) * n (ix2 p (0 : Fin 1)) := by
  unfold k4_pay1
  show (shapeCast S5000x6 x shapeCasts_S5000x6_S5000x6) (ix2 p q)
      * (broadcastTo S5000x6 (shapeCast S5000x1 n shapeCasts_S5000x1_S5000x1) broadcasts_S5000x1_S5000x6) (ix2 p q) = _
  rw [shapeCast_self, shapeCast_self, broadcastTo_a1_ab_apply]

/-! ## The two bias steps -/

theorem biasReluA_apply (x : Vec Ideal S5000x256 .f32) (b : Vec Ideal S1x256 .f32) (p : Fin 5000) (q : Fin 256) :
    k2_pay1 (F := Ideal) x b (ix2 p q) = max (x (ix2 p q) + b (ix2 (0 : Fin 1) q)) (Ideal.ofBits .f32 0x00000000#32) := by
  unfold k2_pay1
  show max ((shapeCast S5000x256 x shapeCasts_S5000x256_S5000x256) (ix2 p q)
      + (broadcastTo S5000x256 (shapeCast S1x256 b shapeCasts_S1x256_S1x256) broadcasts_S1x256_S5000x256) (ix2 p q)) _ = _
  rw [shapeCast_self, shapeCast_self, broadcastTo_1b_ab_apply]
  rfl

theorem biasB_apply (x : Vec Ideal S5000x6 .f32) (b : Vec Ideal S1x6 .f32) (p : Fin 5000) (q : Fin 6) :
    k5_pay1 (F := Ideal) x b (ix2 p q) = x (ix2 p q) + b (ix2 (0 : Fin 1) q) := by
  unfold k5_pay1
  show (shapeCast S5000x6 x shapeCasts_S5000x6_S5000x6) (ix2 p q)
      + (broadcastTo S5000x6 (shapeCast S1x6 b shapeCasts_S1x6_S1x6) broadcasts_S1x6_S5000x6) (ix2 p q) = _
  rw [shapeCast_self, shapeCast_self, broadcastTo_1b_ab_apply]

end Cert.KernelIdeal.Payload

end
-- ==== Proof.RefStages.lean ====
/-
  The reference's stages regrouped around the six places where the other program runs a kernel.

  The reference computes, per layer,  h = x·W,  msg = h[s] · norm[:,None],  agg = segment_sum(msg, d),
  out = agg + b  (and, after the first layer, the maximum with zero).  Here each of
      the product  x·W,   the scaling  h[s] · norm[:,None],   the bias step  agg + b  (with its maximum)
  is written as ONE function of its operand arrays, entry by entry, and the reference's stage is shown to be
  that function of the stages before it.  The gathers and the segment sums stay closed: both programs apply
  the same ones to what these functions produce.
-/
import proofs.«165991_j7730941133132_1_alg».proof.Proof.RefReadPatched

noncomputable section

namespace Cert.ReferenceIdeal.Stage

open Idealize.ShloMosaic Idealize.ShloMosaic.TcCoe Cert.ReferenceIdeal Cert.ReferenceIdeal.ReadP

/-! ## The products -/

/-- The first product, entry (r, c): Σ_k x[r,k] · w[k,c]. -/
def prod1 (x : (⟨S50000x32, .f32⟩ : BufTy).Contents (Elt Ideal)) (w : (⟨S32x256, .f32⟩ : BufTy).Contents (Elt Ideal)) :
    (⟨S50000x256, .f32⟩ : BufTy).Contents (Elt Ideal) :=
  fun i => ∑ k : Fin 32, x (lidx_main_v4 i k) * w (ridx_main_v4 i k)

theorem v4_eq (x0 : (⟨S50000x32, .f32⟩ : BufTy).Contents (Elt Ideal)) (x2 : (⟨S32x256, .f32⟩ : BufTy).Contents (Elt Ideal)) :
    val_main_v4 (F := Ideal) x0 x2 = prod1 x0 x2 :=
  funext fun i => val_main_v4_apply x0 x2 i

/-- The second product, entry (r, c): Σ_k a[r,k] · w[k,c]. -/
def prod2 (a : (⟨S50000x256, .f32⟩ : BufTy).Contents (Elt Ideal)) (w : (⟨S256x6, .f32⟩ : BufTy).Contents (Elt Ideal)) :
    (⟨S50000x6, .f32⟩ : BufTy).Contents (Elt Ideal) :=
  fun i => ∑ k : Fin 256, a (lidx_main_v48 i k) * w (ridx_main_v48 i k)

theorem v48_eq (x0 : (⟨S50000x32, .f32⟩ : BufTy).Contents (Elt Ideal)) (x1 : (⟨S2x800000, .i32⟩ : BufTy).Contents (Elt Ideal))
    (x2 : (⟨S32x256, .f32⟩ : BufTy).Contents (Elt Ideal)) (x3 : (⟨S256, .f32⟩ : BufTy).Contents (Elt Ideal))
    (x4 : (⟨S256x6, .f32⟩ : BufTy).Contents (Elt Ideal)) :
    val_main_v48 (F := Ideal) x0 x1 x2 x3 x4 = prod2 (val_main_v47 (F := Ideal) x0 x1 x2 x3) x4 :=
  funext fun i => val_main_v48_apply x0 x1 x2 x3 x4 i

/-! ## The scalings -/

/-- Row e of the gathered features times the e-th normalisation factor, held as a column. -/
def scale1 (hs : (⟨S850000x256, .f32⟩ : BufTy).Contents (Elt Ideal)) (n : (⟨S850000x1, .f32⟩ : BufTy).Contents (Elt Ideal)) :
    (⟨S850000x256, .f32⟩ : BufTy).Contents (Elt Ideal) :=
  fun i => hs i * n (idx_main_v39 i)

theorem v40_eq (x0 : (⟨S50000x32, .f32⟩ : BufTy).Contents (Elt Ideal)) (x1 : (⟨S2x800000, .i32⟩ : BufTy).Contents (Elt Ideal))
    (x2 : (⟨S32x256, .f32⟩ : BufTy).Contents (Elt Ideal)) :
    val_main_v40 (F := Ideal) x0 x1 x2 = scale1 (val_main_v37 (F := Ideal) x0 x1 x2) (val_main_v38 (F := Ideal) x1) := by
  funext i
  rw [val_main_v40_apply, val_main_v39_apply]
  rfl

def scale2 (hs : (⟨S850000x6, .f32⟩ : BufTy).Contents (Elt Ideal)) (n : (⟨S850000x1, .f32⟩ : BufTy).Contents (Elt Ideal)) :
    (⟨S850000x6, .f32⟩ : BufTy).Contents (Elt Ideal) :=
  fun i => hs i * n (idx_main_v83 i)

theorem v84_eq (x0 : (⟨S50000x32, .f32⟩ : BufTy).Contents (Elt Ideal)) (x1 : (⟨S2x800000, .i32⟩ : BufTy).Contents (Elt Ideal))
    (x2 : (⟨S32x256, .f32⟩ : BufTy).Contents (Elt Ideal)) (x3 : (⟨S256, .f32⟩ : BufTy).Contents (Elt Ideal))
    (x4 : (⟨S256x6, .f32⟩ : BufTy).Contents (Elt Ideal)) :
    val_main_v84 (F := Ideal) x0 x1 x2 x3 x4 = scale2 (val_main_v81 (F := Ideal) x0 x1 x2 x3 x4) (val_main_v82 (F := Ideal) x1) := by
  funext i
  rw [val_main_v84_apply, val_main_v83_apply]
  rfl

/-! ## The bias steps -/

/-- The aggregate plus the bias row, then the maximum with zero. -/
def biasRelu (a : (⟨S50000x256, .f32⟩ : BufTy).Contents (Elt Ideal)) (b : (⟨S1x256, .f32⟩ : BufTy).Contents (Elt Ideal)) :
    (⟨S50000x256, .f32⟩ : BufTy).Contents (Elt Ideal) :=
  fun i => max (a i + b (idx_main_v45 i)) (Ideal.ofBits .f32 0x00000000#32)

theorem v47_eq (x0 : (⟨S50000x32, .f32⟩ : BufTy).Contents (Elt Ideal)) (x1 : (⟨S2x800000, .i32⟩ : BufTy).Contents (Elt Ideal))
    (x2 : (⟨S32x256, .f32⟩ : BufTy).Contents (Elt Ideal)) (x3 : (⟨S256, .f32⟩ : BufTy).Contents (Elt Ideal)) :
    val_main_v47 (F := Ideal) x0 x1 x2 x3 = biasRelu (val_main_v43 (F := Ideal) x0 x1 x2) (val_main_v44 (F := Ideal) x3) := by
  funext i
  rw [val_main_v47_apply, val_main_v46_apply, val_main_v45_apply, val_main_call1_v0_apply, val_main_call1_cst_apply]
  rfl

/-- The aggregate plus the bias row. -/
def bias (a : (⟨S50000x6, .f32⟩ : BufTy).Contents (Elt Ideal)) (b : (⟨S1x6, .f32⟩ : BufTy).Contents (Elt Ideal)) :
    (⟨S50000x6, .f32⟩ : BufTy).Contents (Elt Ideal) :=
  fun i => a i + b (idx_main_v89 i)

theorem v90_eq (x0 : (⟨S50000x32, .f32⟩ : BufTy).Contents (Elt Ideal)) (x1 : (⟨S2x800000, .i32⟩ : BufTy).Contents (Elt Ideal))
    (x2 : (⟨S32x256, .f32⟩ : BufTy).Contents (Elt Ideal)) (x3 : (⟨S256, .f32⟩ : BufTy).Contents (Elt Ideal))
    (x4 : (⟨S256x6, .f32⟩ : BufTy).Contents (Elt Ideal)) (x5 : (⟨S6, .f32⟩ : BufTy).Contents (Elt Ideal)) :
    val_main_v90 (F := Ideal) x0 x1 x2 x3 x4 x5 = bias (val_main_v87 (F := Ideal) x0 x1 x2 x3 x4) (val_main_v88 (F := Ideal) x5) := by
  funext i
  rw [val_main_v90_apply, val_main_v89_apply]
  rfl

end Cert.ReferenceIdeal.Stage

end
-- ==== Proof.Region0.lean ====
/-
  What kernel launch 0 leaves in its output array.

  The launch walks the 50000 rows of its left operand in 10 blocks of 5000; at block t the body multiplies the block
  by the whole [32,256] right operand (both narrowed to bf16 first, which changes nothing on the extended reals)
  into a zero accumulator and writes the product back as rows 5000·t … 5000·t+4999 of the result.  Entry (r, c) of
  the result is therefore Σ_k a[r,k] · w[k,c] whatever block r falls in: the array ends holding the reference's
  product of the same two operand arrays.  Stated at any contents `V` of the buffers on entry to the launch.
-/
import proofs.«165991_j7730941133132_1_alg».proof.Proof.Gen.KernelIdeal.Frame
import proofs.«165991_j7730941133132_1_alg».proof.Proof.Payloads
import proofs.«165991_j7730941133132_1_alg».proof.Proof.RefStages
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 10 grid points: how each operand's block moves with the output's. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every block row of the output is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of the reference's function of the two operand arrays. -/
theorem flushed_eq (c : Dev nD) (t : Fin cfg0.N) :
    (dat0 V c).flushed 2 t = ((cfg0.win 2).blk t).view.read (Elt Ideal) (Cert.ReferenceIdeal.Stage.prod1 (V c main_arg0) (V c main_arg2)) := by
  show (cfg0.win 2).cut (grid0.coords t) ((dat0 V c).after 2 t) = _
  rw [after0_2]
  unfold out0_2
  rw [View.canon_unit_zero hz]
  simp only [View.ld_unit_zero (S := S5000x32) hz, View.ld_unit_zero (S := S32x256) hz]
  obtain ⟨e0, e1, e2, e3, e4⟩ := idx_facts t
  funext j
  obtain ⟨p, q, rfl⟩ : ∃ (p : Fin 5000) (q : Fin 256), j = ix2 p q := ⟨j 0, j 1, eq_ix2 j⟩
  show k0_pay1 (F := Ideal) (iblk0 V c 0 t) (iblk0 V c 1 t) (ix2 p q)
    = Cert.ReferenceIdeal.Stage.prod1 (V c main_arg0) (V c main_arg2) (((cfg0.win 2).blk t).view.emb (ix2 p q))
  refine (Payload.prodA_apply (iblk0 V c 0 t) (iblk0 V c 1 t) p q).trans ?_
  show ∑ k : Fin 32, FloatOps.mulf (F := Ideal) (φ := .f32) (V c main_arg0 (((cfg0.win 0).blk t).view.emb (ix2 p k))) (V c main_arg2 (((cfg0.win 1).blk t).view.emb (ix2 k q)))
    = ∑ k : Fin 32, FloatOps.mulf (F := Ideal) (φ := .f32) (V c main_arg0 (Cert.ReferenceIdeal.ReadP.lidx_main_v4 (((cfg0.win 2).blk t).view.emb (ix2 p q)) k)) (V c main_arg2 (Cert.ReferenceIdeal.ReadP.ridx_main_v4 (((cfg0.win 2).blk t).view.emb (ix2 p q)) k))
  refine Finset.sum_congr rfl fun k _ => ?_
  have h0 : ((cfg0.win 0).blk t).view.emb (ix2 p k) = Cert.ReferenceIdeal.ReadP.lidx_main_v4 (((cfg0.win 2).blk t).view.emb (ix2 p q)) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 32 + 1 * k.val = k.val; omega
  have h1 : ((cfg0.win 1).blk t).view.emb (ix2 k q) = Cert.ReferenceIdeal.ReadP.ridx_main_v4 (((cfg0.win 2).blk t).view.emb (ix2 p q)) k := by
    funext a; apply Fin.ext
    match a with
    | ⟨0, _⟩ => show win0_1.index t (0 : Fin 2) * 32 + 1 * k.val = k.val; omega
    | ⟨1, _⟩ => show win0_1.index t (1 : Fin 2) * 256 + 1 * q.val = win0_2.index t (1 : Fin 2) * 256 + 1 * q.val; omega
  rw [h0, h1]

/-- An index of the result is in point t's block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v4).slice (win0_2.rect t)).set ↔ _
  rw [View.set_slice_whole, Rect.mem_set_unit]
  exact Iff.rfl

/-- The 10 blocks cover the result: row r lies in block r / 5000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The output array after the launch is the reference's function of the two operand arrays as the launch found them. -/
theorem final (c : Dev nD) :
    (dat0 V c).arrAt 2 cfg0.N = Cert.ReferenceIdeal.Stage.prod1 (V c main_arg0) (V c main_arg2) :=
  (dat0 V c).arrAt_eq_of_cover 2 _ (fun t _ => flushed_eq V c t) (cover)

end Cert.KernelIdeal.Region0

end
-- ==== Proof.Region1.lean ====
/-
  What kernel launch 1 leaves in its output array.

  The launch walks the 850000 gathered rows in 170 blocks of 5000; at block t the body multiplies each row of the
  block by that row's normalisation factor, which it receives as a [5000,1] column and spreads along the 256 lanes,
  and writes the block back in place.  Entry (e, f) of the result is h_s[e,f] · n[e,0]: the reference's scaling of
  the same two arrays.  Stated at any contents `V` of the buffers on entry to the launch.
-/
import proofs.«165991_j7730941133132_1_alg».proof.Proof.Gen.KernelIdeal.Frame
import proofs.«165991_j7730941133132_1_alg».proof.Proof.Payloads
import proofs.«165991_j7730941133132_1_alg».proof.Proof.RefStages
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 170 grid points: how each operand's block moves with the output's. -/
theorem idx_facts : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = 0
    ∧ win1_2.index t (1 : Fin 2) = 0 :=
  (by decide +kernel : ∀ t : Fin grid1.N, _)

/-- Every block row of the output is some point's. -/
theorem idx_onto : ∀ q0 : Fin 170, ∃ t : Fin cfg1.N, win1_2.index t = ![q0.val, 0] :=
  (by decide +kernel : ∀ q0 : Fin 170, ∃ t : Fin grid1.N, win1_2.index t = ![q0.val, 0])

/-- What point t writes back is block t of the reference's function of the two operand arrays. -/
theorem flushed_eq (c : Dev nD) (t : Fin cfg1.N) :
    (dat1 V c).flushed 2 t = ((cfg1.win 2).blk t).view.read (Elt Ideal) (Cert.ReferenceIdeal.Stage.scale1 (V c main_v37) (V c main_v38)) := by
  show (cfg1.win 2).cut (grid1.coords t) ((dat1 V c).after 2 t) = _
  rw [after1_2]
  unfold out1_2
  rw [View.canon_unit_zero hz]
  simp only [View.ld_unit_zero (S := S5000x256) hz, View.ld_unit_zero (S := S5000x1) hz]
  obtain ⟨e0, e1, e2, e3, e4⟩ := idx_facts t
  funext j
  obtain ⟨p, q, rfl⟩ : ∃ (p : Fin 5000) (q : Fin 256), j = ix2 p q := ⟨j 0, j 1, eq_ix2 j⟩
  show k1_pay1 (F := Ideal) (iblk1 V c 0 t) (iblk1 V c 1 t) (ix2 p q)
    = Cert.ReferenceIdeal.Stage.scale1 (V c main_v37) (V c main_v38) (((cfg1.win 2).blk t).view.emb (ix2 p q))
  refine (Payload.scaleA_apply (iblk1 V c 0 t) (iblk1 V c 1 t) p q).trans ?_
  show FloatOps.mulf (F := Ideal) (φ := .f32) (V c main_v37 (((cfg1.win 0).blk t).view.emb (ix2 p q))) (V c main_v38 (((cfg1.win 1).blk t).view.emb (ix2 p (0 : Fin 1))))
    = FloatOps.mulf (F := Ideal) (φ := .f32) (V c main_v37 (((cfg1.win 2).blk t).view.emb (ix2 p q))) (V c main_v38 (Cert.ReferenceIdeal.ReadP.idx_main_v39 (((cfg1.win 2).blk t).view.emb (ix2 p q))))
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 256 + 1 * q.val = win1_2.index t (1 : Fin 2) * 256 + 1 * q.val; omega
  have h1 : ((cfg1.win 1).blk t).view.emb (ix2 p (0 : Fin 1)) = Cert.ReferenceIdeal.ReadP.idx_main_v39 (((cfg1.win 2).blk t).view.emb (ix2 p q)) := by
    funext a; apply Fin.ext
    match a with
    | ⟨0, _⟩ => show win1_1.index t (0 : Fin 2) * 5000 + 1 * p.val = win1_2.index t (0 : Fin 2) * 5000 + 1 * p.val; omega
    | ⟨1, _⟩ => show win1_1.index t (1 : Fin 2) * 1 + 1 * 0 = 0; omega
  rw [h0, h1]

/-- An index of the result is in point t's block iff each coordinate is in the block's range on its axis. -/
theorem mem_blk (t : Fin cfg1.N) (i : S850000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v39).slice (win1_2.rect t)).set ↔ _
  rw [View.set_slice_whole, Rect.mem_set_unit]
  exact Iff.rfl

/-- The 170 blocks cover the result: row r lies in block r / 5000. -/
theorem cover (i : S850000x256.Idx) : ∃ t : Fin cfg1.N, (cfg1.win 2).flush t = true ∧ i ∈ ((cfg1.win 2).blk t).view.set := by
  have hi0 : (i 0).val < 850000 := (i 0).isLt
  have hi1 : (i 1).val < 256 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The output array after the launch is the reference's function of the two operand arrays as the launch found them. -/
theorem final (c : Dev nD) :
    (dat1 V c).arrAt 2 cfg1.N = Cert.ReferenceIdeal.Stage.scale1 (V c main_v37) (V c main_v38) :=
  (dat1 V c).arrAt_eq_of_cover 2 _ (fun t _ => flushed_eq V c t) (cover)

end Cert.KernelIdeal.Region1

end
-- ==== Proof.Region2.lean ====
/-
  What kernel launch 2 leaves in its output array.

  The launch walks the 50000 rows of the aggregate in 10 blocks of 5000; at block t the body adds the bias, which it
  receives as one [1,256] row and spreads along the rows, takes the maximum with zero, and writes the block back in place.
  Entry (r, c) of the result is max(agg[r,c] + b[0,c], 0): the reference's bias step on the same two arrays.
  Stated at any contents `V` of the buffers on entry to the launch.
-/
import proofs.«165991_j7730941133132_1_alg».proof.Proof.Gen.KernelIdeal.Frame
import proofs.«165991_j7730941133132_1_alg».proof.Proof.Payloads
import proofs.«165991_j7730941133132_1_alg».proof.Proof.RefStages
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 10 grid points: how each operand's block moves with the output's. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every block row of the output is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point t writes back is block t of the reference's function of the two operand arrays. -/
theorem flushed_eq (c : Dev nD) (t : Fin cfg2.N) :
    (dat2 V c).flushed 2 t = ((cfg2.win 2).blk t).view.read (Elt Ideal) (Cert.ReferenceIdeal.Stage.biasRelu (V c main_v42) (V c main_v43)) := by
  show (cfg2.win 2).cut (grid2.coords t) ((dat2 V c).after 2 t) = _
  rw [after2_2]
  unfold out2_2
  rw [View.canon_unit_zero hz]
  simp only [View.ld_unit_zero (S := S5000x256) hz, View.ld_unit_zero (S := S1x256) hz]
  obtain ⟨e0, e1, e2, e3, e4⟩ := idx_facts t
  funext j
  obtain ⟨p, q, rfl⟩ : ∃ (p : Fin 5000) (q : Fin 256), j = ix2 p q := ⟨j 0, j 1, eq_ix2 j⟩
  show k2_pay1 (F := Ideal) (iblk2 V c 0 t) (iblk2 V c 1 t) (ix2 p q)
    = Cert.ReferenceIdeal.Stage.biasRelu (V c main_v42) (V c main_v43) (((cfg2.win 2).blk t).view.emb (ix2 p q))
  refine (Payload.biasReluA_apply (iblk2 V c 0 t) (iblk2 V c 1 t) p q).trans ?_
  show FloatOps.maximumf (F := Ideal) (φ := .f32) (FloatOps.addf (F := Ideal) (φ := .f32) (V c main_v42 (((cfg2.win 0).blk t).view.emb (ix2 p q))) (V c main_v43 (((cfg2.win 1).blk t).view.emb (ix2 (0 : Fin 1) q)))) (Ideal.ofBits .f32 0x00000000#32)
    = FloatOps.maximumf (F := Ideal) (φ := .f32) (FloatOps.addf (F := Ideal) (φ := .f32) (V c main_v42 (((cfg2.win 2).blk t).view.emb (ix2 p q))) (V c main_v43 (Cert.ReferenceIdeal.ReadP.idx_main_v45 (((cfg2.win 2).blk t).view.emb (ix2 p q))))) (Ideal.ofBits .f32 0x00000000#32)
  have h0 : ((cfg2.win 0).blk t).view.emb (ix2 p q) = ((cfg2.win 2).blk t).view.emb (ix2 p q) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 256 + 1 * q.val = win2_2.index t (1 : Fin 2) * 256 + 1 * q.val; omega
  have h1 : ((cfg2.win 1).blk t).view.emb (ix2 (0 : Fin 1) q) = Cert.ReferenceIdeal.ReadP.idx_main_v45 (((cfg2.win 2).blk t).view.emb (ix2 p q)) := by
    funext a; apply Fin.ext
    match a with
    | ⟨0, _⟩ => show win2_1.index t (0 : Fin 2) * 1 + 1 * 0 = 0; omega
    | ⟨1, _⟩ => show win2_1.index t (1 : Fin 2) * 256 + 1 * q.val = win2_2.index t (1 : Fin 2) * 256 + 1 * q.val; omega
  rw [h0, h1]

/-- An index of the result is in point t's block iff each coordinate is in the block's range on its axis. -/
theorem mem_blk (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v44).slice (win2_2.rect t)).set ↔ _
  rw [View.set_slice_whole, Rect.mem_set_unit]
  exact Iff.rfl

/-- The 10 blocks cover the result: row r lies in block r / 5000. -/
theorem cover (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- The output array after the launch is the reference's function of the two operand arrays as the launch found them. -/
theorem final (c : Dev nD) :
    (dat2 V c).arrAt 2 cfg2.N = Cert.ReferenceIdeal.Stage.biasRelu (V c main_v42) (V c main_v43) :=
  (dat2 V c).arrAt_eq_of_cover 2 _ (fun t _ => flushed_eq V c t) (cover)

end Cert.KernelIdeal.Region2

end
-- ==== Proof.Region3.lean ====
/-
  What kernel launch 3 leaves in its output array.

  The launch walks the 50000 rows of its left operand in 10 blocks of 5000; at block t the body multiplies the block
  by the whole [256,6] right operand (both narrowed to bf16 first, which changes nothing on the extended reals)
  into a zero accumulator and writes the product back as rows 5000·t … 5000·t+4999 of the result.  Entry (r, c) of
  the result is therefore Σ_k a[r,k] · w[k,c] whatever block r falls in: the array ends holding the reference's
  product of the same two operand arrays.  Stated at any contents `V` of the buffers on entry to the launch.
-/
import proofs.«165991_j7730941133132_1_alg».proof.Proof.Gen.KernelIdeal.Frame
import proofs.«165991_j7730941133132_1_alg».proof.Proof.Payloads
import proofs.«165991_j7730941133132_1_alg».proof.Proof.RefStages
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 10 grid points: how each operand's block moves with the output's. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0 :=
  (by decide +kernel : ∀ t : Fin grid3.N, _)

/-- Every block row of the output is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point t writes back is block t of the reference's function of the two operand arrays. -/
theorem flushed_eq (c : Dev nD) (t : Fin cfg3.N) :
    (dat3 V c).flushed 2 t = ((cfg3.win 2).blk t).view.read (Elt Ideal) (Cert.ReferenceIdeal.Stage.prod2 (V c main_v44) (V c main_arg4)) := by
  show (cfg3.win 2).cut (grid3.coords t) ((dat3 V c).after 2 t) = _
  rw [after3_2]
  unfold out3_2
  rw [View.canon_unit_zero hz]
  simp only [View.ld_unit_zero (S := S5000x256) hz, View.ld_unit_zero (S := S256x6) hz]
  obtain ⟨e0, e1, e2, e3, e4⟩ := idx_facts t
  funext j
  obtain ⟨p, q, rfl⟩ : ∃ (p : Fin 5000) (q : Fin 6), j = ix2 p q := ⟨j 0, j 1, eq_ix2 j⟩
  show k3_pay1 (F := Ideal) (iblk3 V c 0 t) (iblk3 V c 1 t) (ix2 p q)
    = Cert.ReferenceIdeal.Stage.prod2 (V c main_v44) (V c main_arg4) (((cfg3.win 2).blk t).view.emb (ix2 p q))
  refine (Payload.prodB_apply (iblk3 V c 0 t) (iblk3 V c 1 t) p q).trans ?_
  show ∑ k : Fin 256, FloatOps.mulf (F := Ideal) (φ := .f32) (V c main_v44 (((cfg3.win 0).blk t).view.emb (ix2 p k))) (V c main_arg4 (((cfg3.win 1).blk t).view.emb (ix2 k q)))
    = ∑ k : Fin 256, FloatOps.mulf (F := Ideal) (φ := .f32) (V c main_v44 (Cert.ReferenceIdeal.ReadP.lidx_main_v48 (((cfg3.win 2).blk t).view.emb (ix2 p q)) k)) (V c main_arg4 (Cert.ReferenceIdeal.ReadP.ridx_main_v48 (((cfg3.win 2).blk t).view.emb (ix2 p q)) k))
  refine Finset.sum_congr rfl fun k _ => ?_
  have h0 : ((cfg3.win 0).blk t).view.emb (ix2 p k) = Cert.ReferenceIdeal.ReadP.lidx_main_v48 (((cfg3.win 2).blk t).view.emb (ix2 p q)) k := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 256 + 1 * k.val = k.val; omega
  have h1 : ((cfg3.win 1).blk t).view.emb (ix2 k q) = Cert.ReferenceIdeal.ReadP.ridx_main_v48 (((cfg3.win 2).blk t).view.emb (ix2 p q)) k := by
    funext a; apply Fin.ext
    match a with
    | ⟨0, _⟩ => show win3_1.index t (0 : Fin 2) * 256 + 1 * k.val = k.val; omega
    | ⟨1, _⟩ => show win3_1.index t (1 : Fin 2) * 6 + 1 * q.val = win3_2.index t (1 : Fin 2) * 6 + 1 * q.val; omega
  rw [h0, h1]

/-- An index of the result is in point t's block iff each coordinate is in the block's range on its axis. -/
theorem mem_blk (t : Fin cfg3.N) (i : S50000x6.Idx) :
    i ∈ ((cfg3.win 2).blk t).view.set ↔ ∀ a : Fin 2, win3_2.index t a * S5000x6.size a ≤ (i a).val ∧ (i a).val < win3_2.index t a * S5000x6.size a + S5000x6.size a := by
  show i ∈ ((View.whole main_v45).slice (win3_2.rect t)).set ↔ _
  rw [View.set_slice_whole, Rect.mem_set_unit]
  exact Iff.rfl

/-- The 10 blocks cover the result: row r lies in block r / 5000. -/
theorem cover (i : S50000x6.Idx) : ∃ t : Fin cfg3.N, (cfg3.win 2).flush t = true ∧ i ∈ ((cfg3.win 2).blk t).view.set := by
  have hi0 : (i 0).val < 50000 := (i 0).isLt
  have hi1 : (i 1).val < 6 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 6 ≤ (i 1).val ∧ (i 1).val < win3_2.index t (1 : Fin 2) * 6 + 6; omega

/-- The output array after the launch is the reference's function of the two operand arrays as the launch found them. -/
theorem final (c : Dev nD) :
    (dat3 V c).arrAt 2 cfg3.N = Cert.ReferenceIdeal.Stage.prod2 (V c main_v44) (V c main_arg4) :=
  (dat3 V c).arrAt_eq_of_cover 2 _ (fun t _ => flushed_eq V c t) (cover)

end Cert.KernelIdeal.Region3

end
-- ==== Proof.Region4.lean ====
/-
  What kernel launch 4 leaves in its output array.

  The launch walks the 850000 gathered rows in 170 blocks of 5000; at block t the body multiplies each row of the
  block by that row's normalisation factor, which it receives as a [5000,1] column and spreads along the 6 lanes,
  and writes the block back in place.  Entry (e, f) of the result is h_s[e,f] · n[e,0]: the reference's scaling of
  the same two arrays.  Stated at any contents `V` of the buffers on entry to the launch.
-/
import proofs.«165991_j7730941133132_1_alg».proof.Proof.Gen.KernelIdeal.Frame
import proofs.«165991_j7730941133132_1_alg».proof.Proof.Payloads
import proofs.«165991_j7730941133132_1_alg».proof.Proof.RefStages
import Idealize.ShloMosaic.Lib.Pipeline.Value

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 170 grid points: how each operand's block moves with the output's. -/
theorem idx_facts : ∀ t : Fin cfg4.N, win4_0.index t (0 : Fin 2) = win4_2.index t (0 : Fin 2)
    ∧ win4_0.index t (1 : Fin 2) = 0
    ∧ win4_1.index t (0 : Fin 2) = win4_2.index t (0 : Fin 2)
    ∧ win4_1.index t (1 : Fin 2) = 0
    ∧ win4_2.index t (1 : Fin 2) = 0 :=
  (by decide +kernel : ∀ t : Fin grid4.N, _)

/-- Every block row of the output is some point's. -/
theorem idx_onto : ∀ q0 : Fin 170, ∃ t : Fin cfg4.N, win4_2.index t = ![q0.val, 0] :=
  (by decide +kernel : ∀ q0 : Fin 170, ∃ t : Fin grid4.N, win4_2.index t = ![q0.val, 0])

/-- What point t writes back is block t of the reference's function of the two operand arrays. -/
theorem flushed_eq (c : Dev nD) (t : Fin cfg4.N) :
    (dat4 V c).flushed 2 t = ((cfg4.win 2).blk t).view.read (Elt Ideal) (Cert.ReferenceIdeal.Stage.scale2 (V c main_v78) (V c main_v79)) := by
  show (cfg4.win 2).cut (grid4.coords t) ((dat4 V c).after 2 t) = _
  rw [after4_2]
  unfold out4_2
  rw [View.canon_unit_zero hz]
  simp only [View.ld_unit_zero (S := S5000x6) hz, View.ld_unit_zero (S := S5000x1) hz]
  obtain ⟨e0, e1, e2, e3, e4⟩ := idx_facts t
  funext j
  obtain ⟨p, q, rfl⟩ : ∃ (p : Fin 5000) (q : Fin 6), j = ix2 p q := ⟨j 0, j 1, eq_ix2 j⟩
  show k4_pay1 (F := Ideal) (iblk4 V c 0 t) (iblk4 V c 1 t) (ix2 p q)
    = Cert.ReferenceIdeal.Stage.scale2 (V c main_v78) (V c main_v79) (((cfg4.win 2).blk t).view.emb (ix2 p q))
  refine (Payload.scaleB_apply (iblk4 V c 0 t) (iblk4 V c 1 t) p q).trans ?_
  show FloatOps.mulf (F := Ideal) (φ := .f32) (V c main_v78 (((cfg4.win 0).blk t).view.emb (ix2 p q))) (V c main_v79 (((cfg4.win 1).blk t).view.emb (ix2 p (0 : Fin 1))))
    = FloatOps.mulf (F := Ideal) (φ := .f32) (V c main_v78 (((cfg4.win 2).blk t).view.emb (ix2 p q))) (V c main_v79 (Cert.ReferenceIdeal.ReadP.idx_main_v83 (((cfg4.win 2).blk t).view.emb (ix2 p q))))
  have h0 : ((cfg4.win 0).blk t).view.emb (ix2 p q) = ((cfg4.win 2).blk t).view.emb (ix2 p q) := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 6 + 1 * q.val = win4_2.index t (1 : Fin 2) * 6 + 1 * q.val; omega
  have h1 : ((cfg4.win 1).blk t).view.emb (ix2 p (0 : Fin 1)) = Cert.ReferenceIdeal.ReadP.idx_main_v83 (((cfg4.win 2).blk t).view.emb (ix2 p q)) := by
    funext a; apply Fin.ext
    match a with
    | ⟨0, _⟩ => show win4_1.index t (0 : Fin 2) * 5000 + 1 * p.val = win4_2.index t (0 : Fin 2) * 5000 + 1 * p.val; omega
    | ⟨1, _⟩ => show win4_1.index t (1 : Fin 2) * 1 + 1 * 0 = 0; omega
  rw [h0, h1]

/-- An index of the result is in point t's block iff each coordinate is in the block's range on its axis. -/
theorem mem_blk (t : Fin cfg4.N) (i : S850000x6.Idx) :
    i ∈ ((cfg4.win 2).blk t).view.set ↔ ∀ a : Fin 2, win4_2.index t a * S5000x6.size a ≤ (i a).val ∧ (i a).val < win4_2.index t a * S5000x6.size a + S5000x6.size a := by
  show i ∈ ((View.whole main_v80).slice (win4_2.rect t)).set ↔ _
  rw [View.set_slice_whole, Rect.mem_set_unit]
  exact Iff.rfl

/-- The 170 blocks cover the result: row r lies in block r / 5000. -/
theorem cover (i : S850000x6.Idx) : ∃ t : Fin cfg4.N, (cfg4.win 2).flush t = true ∧ i ∈ ((cfg4.win 2).blk t).view.set := by
  have hi0 : (i 0).val < 850000 := (i 0).isLt
  have hi1 : (i 1).val < 6 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 6 ≤ (i 1).val ∧ (i 1).val < win4_2.index t (1 : Fin 2) * 6 + 6; omega

/-- The output array after the launch is the reference's function of the two operand arrays as the launch found them. -/
theorem final (c : Dev nD) :
    (dat4 V c).arrAt 2 cfg4.N = Cert.ReferenceIdeal.Stage.scale2 (V c main_v78) (V c main_v79) :=
  (dat4 V c).arrAt_eq_of_cover 2 _ (fun t _ => flushed_eq V c t) (cover)

end Cert.KernelIdeal.Region4

end
-- ==== Proof.Region5.lean ====
/-
  What kernel launch 5 leaves in its output array.

  The launch walks the 50000 rows of the aggregate in 10 blocks of 5000; at block t the body adds the bias, which it
  receives as one [1,6] row and spreads along the rows and writes the block back in place.
  Entry (r, c) of the result is agg[r,c] + b[0,c]: the reference's bias step on the same two arrays.
  Stated at any contents `V` of the buffers on entry to the launch.
-/
import proofs.«165991_j7730941133132_1_alg».proof.Proof.Gen.KernelIdeal.Frame
import proofs.«165991_j7730941133132_1_alg».proof.Proof.Payloads
import proofs.«165991_j7730941133132_1_alg».proof.Proof.RefStages
import Idealize.ShloMosaic.Lib.Pipeline.Value

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 10 grid points: how each operand's block moves with the output's. -/
theorem idx_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0 :=
  (by decide +kernel : ∀ t : Fin grid5.N, _)

/-- Every block row of the output is some point's. -/
theorem idx_onto : ∀ q0 : Fin 10, ∃ t : Fin cfg5.N, win5_2.index t = ![q0.val, 0] :=
  (by decide +kernel : ∀ q0 : Fin 10, ∃ t : Fin grid5.N, win5_2.index t = ![q0.val, 0])

/-- What point t writes back is block t of the reference's function of the two operand arrays. -/
theorem flushed_eq (c : Dev nD) (t : Fin cfg5.N) :
    (dat5 V c).flushed 2 t = ((cfg5.win 2).blk t).view.read (Elt Ideal) (Cert.ReferenceIdeal.Stage.bias (V c main_v83) (V c main_v84)) := by
  show (cfg5.win 2).cut (grid5.coords t) ((dat5 V c).after 2 t) = _
  rw [after5_2]
  unfold out5_2
  rw [View.canon_unit_zero hz]
  simp only [View.ld_unit_zero (S := S5000x6) hz, View.ld_unit_zero (S := S1x6) hz]
  obtain ⟨e0, e1, e2, e3, e4⟩ := idx_facts t
  funext j
  obtain ⟨p, q, rfl⟩ : ∃ (p : Fin 5000) (q : Fin 6), j = ix2 p q := ⟨j 0, j 1, eq_ix2 j⟩
  show k5_pay1 (F := Ideal) (iblk5 V c 0 t) (iblk5 V c 1 t) (ix2 p q)
    = Cert.ReferenceIdeal.Stage.bias (V c main_v83) (V c main_v84) (((cfg5.win 2).blk t).view.emb (ix2 p q))
  refine (Payload.biasB_apply (iblk5 V c 0 t) (iblk5 V c 1 t) p q).trans ?_
  show FloatOps.addf (F := Ideal) (φ := .f32) (V c main_v83 (((cfg5.win 0).blk t).view.emb (ix2 p q))) (V c main_v84 (((cfg5.win 1).blk t).view.emb (ix2 (0 : Fin 1) q)))
    = FloatOps.addf (F := Ideal) (φ := .f32) (V c main_v83 (((cfg5.win 2).blk t).view.emb (ix2 p q))) (V c main_v84 (Cert.ReferenceIdeal.ReadP.idx_main_v89 (((cfg5.win 2).blk t).view.emb (ix2 p q))))
  have h0 : ((cfg5.win 0).blk t).view.emb (ix2 p q) = ((cfg5.win 2).blk t).view.emb (ix2 p q) := by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 6 + 1 * q.val = win5_2.index t (1 : Fin 2) * 6 + 1 * q.val; omega
  have h1 : ((cfg5.win 1).blk t).view.emb (ix2 (0 : Fin 1) q) = Cert.ReferenceIdeal.ReadP.idx_main_v89 (((cfg5.win 2).blk t).view.emb (ix2 p q)) := by
    funext a; apply Fin.ext
    match a with
    | ⟨0, _⟩ => show win5_1.index t (0 : Fin 2) * 1 + 1 * 0 = 0; omega
    | ⟨1, _⟩ => show win5_1.index t (1 : Fin 2) * 6 + 1 * q.val = win5_2.index t (1 : Fin 2) * 6 + 1 * q.val; omega
  rw [h0, h1]

/-- An index of the result is in point t's block iff each coordinate is in the block's range on its axis. -/
theorem mem_blk (t : Fin cfg5.N) (i : S50000x6.Idx) :
    i ∈ ((cfg5.win 2).blk t).view.set ↔ ∀ a : Fin 2, win5_2.index t a * S5000x6.size a ≤ (i a).val ∧ (i a).val < win5_2.index t a * S5000x6.size a + S5000x6.size a := by
  show i ∈ ((View.whole main_v85).slice (win5_2.rect t)).set ↔ _
  rw [View.set_slice_whole, Rect.mem_set_unit]
  exact Iff.rfl

/-- The 10 blocks cover the result: row r lies in block r / 5000. -/
theorem cover (i : S50000x6.Idx) : ∃ t : Fin cfg5.N, (cfg5.win 2).flush t = true ∧ i ∈ ((cfg5.win 2).blk t).view.set := by
  have hi0 : (i 0).val < 50000 := (i 0).isLt
  have hi1 : (i 1).val < 6 := (i 1).isLt
  obtain ⟨t, ht⟩ := idx_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 6 ≤ (i 1).val ∧ (i 1).val < win5_2.index t (1 : Fin 2) * 6 + 6; omega

/-- The output array after the launch is the reference's function of the two operand arrays as the launch found them. -/
theorem final (c : Dev nD) :
    (dat5 V c).arrAt 2 cfg5.N = Cert.ReferenceIdeal.Stage.bias (V c main_v83) (V c main_v84) :=
  (dat5 V c).arrAt_eq_of_cover 2 _ (fun t _ => flushed_eq V c t) (cover)

end Cert.KernelIdeal.Region5

end
-- ==== Proof.Fold.lean ====
/-
  The kernel program's result buffer, at the end of its run, holds the reference's function of the six arguments.

  @main is fifteen segments: stretches of host operations and six kernel launches.  The buffer contents at each
  segment boundary are a fold from the launch memory.  Walking that fold, every buffer a later segment reads is
  identified with the reference's stage of the same name in the reference's own program:
    * a host stretch applies the very operations the reference applies (the slices of the edge list, the
      self-loop concatenation, the degree count by scatter-add, its inverse square root and the select on a
      positive degree, the gathers, the scatter-add of the messages), so its results are the reference's stages
      of equal operands; a reshape of a vector to a column or a row is the reference's broadcast of it;
    * a kernel launch leaves in its output array the reference's product, scaling or bias step of the launch's
      two operand arrays (one module per launch);
    * a buffer no segment in between writes keeps its contents.
  No gather or scatter is opened: both programs apply the same ones to equal arrays.
-/
import proofs.«165991_j7730941133132_1_alg».proof.Proof.Gen.KernelIdeal.Frame
import proofs.«165991_j7730941133132_1_alg».proof.Proof.Region0
import proofs.«165991_j7730941133132_1_alg».proof.Proof.Region1
import proofs.«165991_j7730941133132_1_alg».proof.Proof.Region2
import proofs.«165991_j7730941133132_1_alg».proof.Proof.Region3
import proofs.«165991_j7730941133132_1_alg».proof.Proof.Region4
import proofs.«165991_j7730941133132_1_alg».proof.Proof.Region5
import proofs.«165991_j7730941133132_1_alg».proof.Proof.RefStages
import proofs.«165991_j7730941133132_1_alg».proof.Proof.LibColumnForms
import Idealize.ShloMosaic.Lib.StableHlo.Run

set_option maxRecDepth 16384
set_option maxHeartbeats 4000000

noncomputable section

namespace Cert.KernelIdeal.Fold

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- An operation's result read at a buffer is, at the operation's own result buffer, its function of the operands' contents
    and, at any other buffer, what was there before: applied to the reads that remain among a concatenation's operands. -/
local macro "finish_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- The six argument arrays as launched. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)

/-! ## W1: after the slices of the edge list -/

theorem W1_v1 : W1 m ρ c (Proc.devRef .tc main_v1) = Cert.ReferenceIdeal.ReadP.val_main_v1 (F := Ideal) (A1 m c) := by
  show StableHlo.after hostOps0 (W0 m ρ c) (Proc.devRef .tc main_v1) = _
  after_results_simp <;> rfl

theorem W1_v3 : W1 m ρ c (Proc.devRef .tc main_v3) = Cert.ReferenceIdeal.ReadP.val_main_v3 (F := Ideal) (A1 m c) := by
  show StableHlo.after hostOps0 (W0 m ρ c) (Proc.devRef .tc main_v3) = _
  after_results_simp <;> rfl

theorem W1_arg0 : W1 m ρ c (Proc.devRef .tc main_arg0) = A0 m c := by
  show StableHlo.after hostOps0 (W0 m ρ c) (Proc.devRef .tc main_arg0) = _
  after_results_simp <;> rfl

theorem W1_arg2 : W1 m ρ c (Proc.devRef .tc main_arg2) = A2 m c := by
  show StableHlo.after hostOps0 (W0 m ρ c) (Proc.devRef .tc main_arg2) = _
  after_results_simp <;> rfl

theorem W1_arg3 : W1 m ρ c (Proc.devRef .tc main_arg3) = A3 m c := by
  show StableHlo.after hostOps0 (W0 m ρ c) (Proc.devRef .tc main_arg3) = _
  after_results_simp <;> rfl

theorem W1_arg4 : W1 m ρ c (Proc.devRef .tc main_arg4) = A4 m c := by
  show StableHlo.after hostOps0 (W0 m ρ c) (Proc.devRef .tc main_arg4) = _
  after_results_simp <;> rfl

theorem W1_arg5 : W1 m ρ c (Proc.devRef .tc main_arg5) = A5 m c := by
  show StableHlo.after hostOps0 (W0 m ρ c) (Proc.devRef .tc main_arg5) = _
  after_results_simp <;> rfl

/-! ## W2: after the first launch, h = x · W1 -/

theorem W2_v4 : W2 m ρ c (Proc.devRef .tc main_v4) = Cert.ReferenceIdeal.Stage.prod1 (A0 m c) (A2 m c) :=
  ((W2_arr m ρ c 2).trans (Region0.final (V1 m ρ) c)).trans (by
    show Cert.ReferenceIdeal.Stage.prod1 (W1 m ρ c (Proc.devRef .tc main_arg0)) (W1 m ρ c (Proc.devRef .tc main_arg2)) = _
    rw [W1_arg0, W1_arg2])

theorem W2_v1 : W2 m ρ c (Proc.devRef .tc main_v1) = Cert.ReferenceIdeal.ReadP.val_main_v1 (F := Ideal) (A1 m c) := (W2_of_ne m ρ c main_v1 (by decide)).trans (W1_v1 m ρ c)

theorem W2_v3 : W2 m ρ c (Proc.devRef .tc main_v3) = Cert.ReferenceIdeal.ReadP.val_main_v3 (F := Ideal) (A1 m c) := (W2_of_ne m ρ c main_v3 (by decide)).trans (W1_v3 m ρ c)

theorem W2_arg3 : W2 m ρ c (Proc.devRef .tc main_arg3) = A3 m c := (W2_of_ne m ρ c main_arg3 (by decide)).trans (W1_arg3 m ρ c)

theorem W2_arg4 : W2 m ρ c (Proc.devRef .tc main_arg4) = A4 m c := (W2_of_ne m ρ c main_arg4 (by decide)).trans (W1_arg4 m ρ c)

theorem W2_arg5 : W2 m ρ c (Proc.devRef .tc main_arg5) = A5 m c := (W2_of_ne m ρ c main_arg5 (by decide)).trans (W1_arg5 m ρ c)

/-! ## W3: the self-loop concatenations, the degree count, its sign test and inverse square root -/

theorem W3_v6 : W3 m ρ c (Proc.devRef .tc main_v6) = Cert.ReferenceIdeal.ReadP.val_main_v6 (F := Ideal) (A1 m c) := by
  have h0 := W2_v1 m ρ c
  show StableHlo.after hostOps1 (W2 m ρ c) (Proc.devRef .tc main_v6) = _
  generalize W2 m ρ c = V at h0 ⊢
  after_results_simp
  finish_results
  rw [h0]
  rfl

theorem W3_v7 : W3 m ρ c (Proc.devRef .tc main_v7) = Cert.ReferenceIdeal.ReadP.val_main_v7 (F := Ideal) (A1 m c) := by
  have h0 := W2_v3 m ρ c
  show StableHlo.after hostOps1 (W2 m ρ c) (Proc.devRef .tc main_v7) = _
  generalize W2 m ρ c = V at h0 ⊢
  after_results_simp
  finish_results
  rw [h0]
  rfl

theorem W3_v13 : W3 m ρ c (Proc.devRef .tc main_v13) = Cert.ReferenceIdeal.ReadP.val_main_v13 (F := Ideal) (A1 m c) := by
  have h0 := W2_v3 m ρ c
  show StableHlo.after hostOps1 (W2 m ρ c) (Proc.devRef .tc main_v13) = _
  generalize W2 m ρ c = V at h0 ⊢
  after_results_simp
  finish_results
  rw [h0]
  rfl

theorem W3_v14 : W3 m ρ c (Proc.devRef .tc main_v14) = Cert.ReferenceIdeal.ReadP.val_main_v14 (F := Ideal) (A1 m c) := by
  have h0 := W2_v3 m ρ c
  show StableHlo.after hostOps1 (W2 m ρ c) (Proc.devRef .tc main_v14) = _
  generalize W2 m ρ c = V at h0 ⊢
  after_results_simp
  finish_results
  rw [h0]
  rfl

theorem W3_cst_2 : W3 m ρ c (Proc.devRef .tc main_cst_2) = Cert.ReferenceIdeal.ReadP.val_main_cst_2 (F := Ideal) := by
  show StableHlo.after hostOps1 (W2 m ρ c) (Proc.devRef .tc main_cst_2) = _
  generalize W2 m ρ c = V
  after_results_simp
  rfl

theorem W3_v4 : W3 m ρ c (Proc.devRef .tc main_v4) = Cert.ReferenceIdeal.Stage.prod1 (A0 m c) (A2 m c) := by
  have h0 := W2_v4 m ρ c
  show StableHlo.after hostOps1 (W2 m ρ c) (Proc.devRef .tc main_v4) = _
  generalize W2 m ρ c = V at h0 ⊢
  after_results_simp
  exact h0

theorem W3_v1 : W3 m ρ c (Proc.devRef .tc main_v1) = Cert.ReferenceIdeal.ReadP.val_main_v1 (F := Ideal) (A1 m c) := by
  have h0 := W2_v1 m ρ c
  show StableHlo.after hostOps1 (W2 m ρ c) (Proc.devRef .tc main_v1) = _
  generalize W2 m ρ c = V at h0 ⊢
  after_results_simp
  exact h0

theorem W3_v3 : W3 m ρ c (Proc.devRef .tc main_v3) = Cert.ReferenceIdeal.ReadP.val_main_v3 (F := Ideal) (A1 m c) := by
  have h0 := W2_v3 m ρ c
  show StableHlo.after hostOps1 (W2 m ρ c) (Proc.devRef .tc main_v3) = _
  generalize W2 m ρ c = V at h0 ⊢
  after_results_simp
  exact h0

theorem W3_arg3 : W3 m ρ c (Proc.devRef .tc main_arg3) = A3 m c := by
  have h0 := W2_arg3 m ρ c
  show StableHlo.after hostOps1 (W2 m ρ c) (Proc.devRef .tc main_arg3) = _
  generalize W2 m ρ c = V at h0 ⊢
  after_results_simp
  exact h0

theorem W3_arg4 : W3 m ρ c (Proc.devRef .tc main_arg4) = A4 m c := by
  have h0 := W2_arg4 m ρ c
  show StableHlo.after hostOps1 (W2 m ρ c) (Proc.devRef .tc main_arg4) = _
  generalize W2 m ρ c = V at h0 ⊢
  after_results_simp
  exact h0

theorem W3_arg5 : W3 m ρ c (Proc.devRef .tc main_arg5) = A5 m c := by
  have h0 := W2_arg5 m ρ c
  show StableHlo.after hostOps1 (W2 m ρ c) (Proc.devRef .tc main_arg5) = _
  generalize W2 m ρ c = V at h0 ⊢
  after_results_simp
  exact h0

/-! ## W4: dinv = where(deg > 0, rsqrt(deg), 0) -/

theorem W4_v15 : W4 m ρ c (Proc.devRef .tc main_v15) = Cert.ReferenceIdeal.ReadP.val_main_v15 (F := Ideal) (A1 m c) := by
  have h0 := W3_v13 m ρ c
  have h1 := W3_v14 m ρ c
  have h2 := W3_cst_2 m ρ c
  show StableHlo.after hostOps1_1 (W3 m ρ c) (Proc.devRef .tc main_v15) = _
  generalize W3 m ρ c = V at h0 h1 h2 ⊢
  after_results_simp
  refine Eq.trans (b := select (V (Proc.devRef .tc main_v13)) (V (Proc.devRef .tc main_v14)) (broadcastInDim S50000 ![] bcast_S_S50000 (id (V (Proc.devRef .tc main_cst_2))))) rfl ?_
  rw [h0, h1, h2]
  rfl

theorem W4_v6 : W4 m ρ c (Proc.devRef .tc main_v6) = Cert.ReferenceIdeal.ReadP.val_main_v6 (F := Ideal) (A1 m c) := by
  have h0 := W3_v6 m ρ c
  show StableHlo.after hostOps1_1 (W3 m ρ c) (Proc.devRef .tc main_v6) = _
  generalize W3 m ρ c = V at h0 ⊢
  after_results_simp
  exact h0

theorem W4_v7 : W4 m ρ c (Proc.devRef .tc main_v7) = Cert.ReferenceIdeal.ReadP.val_main_v7 (F := Ideal) (A1 m c) := by
  have h0 := W3_v7 m ρ c
  show StableHlo.after hostOps1_1 (W3 m ρ c) (Proc.devRef .tc main_v7) = _
  generalize W3 m ρ c = V at h0 ⊢
  after_results_simp
  exact h0

theorem W4_v4 : W4 m ρ c (Proc.devRef .tc main_v4) = Cert.ReferenceIdeal.Stage.prod1 (A0 m c) (A2 m c) := by
  have h0 := W3_v4 m ρ c
  show StableHlo.after hostOps1_1 (W3 m ρ c) (Proc.devRef .tc main_v4) = _
  generalize W3 m ρ c = V at h0 ⊢
  after_results_simp
  exact h0

theorem W4_v1 : W4 m ρ c (Proc.devRef .tc main_v1) = Cert.ReferenceIdeal.ReadP.val_main_v1 (F := Ideal) (A1 m c) := by
  have h0 := W3_v1 m ρ c
  show StableHlo.after hostOps1_1 (W3 m ρ c) (Proc.devRef .tc main_v1) = _
  generalize W3 m ρ c = V at h0 ⊢
  after_results_simp
  exact h0

theorem W4_v3 : W4 m ρ c (Proc.devRef .tc main_v3) = Cert.ReferenceIdeal.ReadP.val_main_v3 (F := Ideal) (A1 m c) := by
  have h0 := W3_v3 m ρ c
  show StableHlo.after hostOps1_1 (W3 m ρ c) (Proc.devRef .tc main_v3) = _
  generalize W3 m ρ c = V at h0 ⊢
  after_results_simp
  exact h0

theorem W4_arg3 : W4 m ρ c (Proc.devRef .tc main_arg3) = A3 m c := by
  have h0 := W3_arg3 m ρ c
  show StableHlo.after hostOps1_1 (W3 m ρ c) (Proc.devRef .tc main_arg3) = _
  generalize W3 m ρ c = V at h0 ⊢
  after_results_simp
  exact h0

theorem W4_arg4 : W4 m ρ c (Proc.devRef .tc main_arg4) = A4 m c := by
  have h0 := W3_arg4 m ρ c
  show StableHlo.after hostOps1_1 (W3 m ρ c) (Proc.devRef .tc main_arg4) = _
  generalize W3 m ρ c = V at h0 ⊢
  after_results_simp
  exact h0

theorem W4_arg5 : W4 m ρ c (Proc.devRef .tc main_arg5) = A5 m c := by
  have h0 := W3_arg5 m ρ c
  show StableHlo.after hostOps1_1 (W3 m ρ c) (Proc.devRef .tc main_arg5) = _
  generalize W3 m ρ c = V at h0 ⊢
  after_results_simp
  exact h0

/-! ## W5: norm = dinv[s] · dinv[d], the gathered rows h[s], and norm as a column -/

theorem W5_v30 : W5 m ρ c (Proc.devRef .tc main_v30) = Cert.ReferenceIdeal.ReadP.val_main_v30 (F := Ideal) (A1 m c) := by
  have h0 := W4_v15 m ρ c
  have h1 := W4_v6 m ρ c
  have h2 := W4_v7 m ρ c
  show StableHlo.after hostOps1_2 (W4 m ρ c) (Proc.devRef .tc main_v30) = _
  generalize W4 m ρ c = V at h0 h1 h2 ⊢
  after_results_simp
  rw [h0, h1, h2]
  rfl

theorem W5_v37 : W5 m ρ c (Proc.devRef .tc main_v37) = Cert.ReferenceIdeal.ReadP.val_main_v37 (F := Ideal) (A0 m c) (A1 m c) (A2 m c) := by
  have h0 := W4_v4 m ρ c
  have h1 := W4_v6 m ρ c
  show StableHlo.after hostOps1_2 (W4 m ρ c) (Proc.devRef .tc main_v37) = _
  generalize W4 m ρ c = V at h0 h1 ⊢
  after_results_simp
  rw [h0, h1]
  unfold Cert.ReferenceIdeal.ReadP.val_main_v37
  rw [Cert.ReferenceIdeal.Stage.v4_eq]
  rfl

/-- The normalisation column is the reshape of the normalisation vector. -/
theorem W5_v38_of_v30 : W5 m ρ c (Proc.devRef .tc main_v38) = shapeCast _ (W5 m ρ c (Proc.devRef .tc main_v30)) shapeCasts_S850000_S850000x1 := by
  show StableHlo.after hostOps1_2 (W4 m ρ c) (Proc.devRef .tc main_v38) = shapeCast _ (StableHlo.after hostOps1_2 (W4 m ρ c) (Proc.devRef .tc main_v30)) _
  generalize W4 m ρ c = V
  after_results_simp
theorem W5_v38 : W5 m ρ c (Proc.devRef .tc main_v38) = Cert.ReferenceIdeal.ReadP.val_main_v38 (F := Ideal) (A1 m c) := by
  rw [W5_v38_of_v30, W5_v30]
  exact ColumnForms.shapeCast_a_a1_eq_broadcastInDim _ _ _

theorem W5_v7 : W5 m ρ c (Proc.devRef .tc main_v7) = Cert.ReferenceIdeal.ReadP.val_main_v7 (F := Ideal) (A1 m c) := by
  have h0 := W4_v7 m ρ c
  show StableHlo.after hostOps1_2 (W4 m ρ c) (Proc.devRef .tc main_v7) = _
  generalize W4 m ρ c = V at h0 ⊢
  after_results_simp
  exact h0

theorem W5_v1 : W5 m ρ c (Proc.devRef .tc main_v1) = Cert.ReferenceIdeal.ReadP.val_main_v1 (F := Ideal) (A1 m c) := by
  have h0 := W4_v1 m ρ c
  show StableHlo.after hostOps1_2 (W4 m ρ c) (Proc.devRef .tc main_v1) = _
  generalize W4 m ρ c = V at h0 ⊢
  after_results_simp
  exact h0

theorem W5_v3 : W5 m ρ c (Proc.devRef .tc main_v3) = Cert.ReferenceIdeal.ReadP.val_main_v3 (F := Ideal) (A1 m c) := by
  have h0 := W4_v3 m ρ c
  show StableHlo.after hostOps1_2 (W4 m ρ c) (Proc.devRef .tc main_v3) = _
  generalize W4 m ρ c = V at h0 ⊢
  after_results_simp
  exact h0

theorem W5_arg3 : W5 m ρ c (Proc.devRef .tc main_arg3) = A3 m c := by
  have h0 := W4_arg3 m ρ c
  show StableHlo.after hostOps1_2 (W4 m ρ c) (Proc.devRef .tc main_arg3) = _
  generalize W4 m ρ c = V at h0 ⊢
  after_results_simp
  exact h0

theorem W5_arg4 : W5 m ρ c (Proc.devRef .tc main_arg4) = A4 m c := by
  have h0 := W4_arg4 m ρ c
  show StableHlo.after hostOps1_2 (W4 m ρ c) (Proc.devRef .tc main_arg4) = _
  generalize W4 m ρ c = V at h0 ⊢
  after_results_simp
  exact h0

theorem W5_arg5 : W5 m ρ c (Proc.devRef .tc main_arg5) = A5 m c := by
  have h0 := W4_arg5 m ρ c
  show StableHlo.after hostOps1_2 (W4 m ρ c) (Proc.devRef .tc main_arg5) = _
  generalize W4 m ρ c = V at h0 ⊢
  after_results_simp
  exact h0

/-! ## W6: after the second launch, msg = h[s] · norm[:,None] -/

theorem W6_v39 : W6 m ρ c (Proc.devRef .tc main_v39) = Cert.ReferenceIdeal.ReadP.val_main_v40 (F := Ideal) (A0 m c) (A1 m c) (A2 m c) :=
  ((W6_arr m ρ c 2).trans (Region1.final (V5 m ρ) c)).trans (by
    show Cert.ReferenceIdeal.Stage.scale1 (W5 m ρ c (Proc.devRef .tc main_v37)) (W5 m ρ c (Proc.devRef .tc main_v38)) = _
    rw [W5_v37, W5_v38]
    exact (Cert.ReferenceIdeal.Stage.v40_eq _ _ _).symm)

theorem W6_v7 : W6 m ρ c (Proc.devRef .tc main_v7) = Cert.ReferenceIdeal.ReadP.val_main_v7 (F := Ideal) (A1 m c) := (W6_of_ne m ρ c main_v7 (by decide)).trans (W5_v7 m ρ c)

theorem W6_v1 : W6 m ρ c (Proc.devRef .tc main_v1) = Cert.ReferenceIdeal.ReadP.val_main_v1 (F := Ideal) (A1 m c) := (W6_of_ne m ρ c main_v1 (by decide)).trans (W5_v1 m ρ c)

theorem W6_v3 : W6 m ρ c (Proc.devRef .tc main_v3) = Cert.ReferenceIdeal.ReadP.val_main_v3 (F := Ideal) (A1 m c) := (W6_of_ne m ρ c main_v3 (by decide)).trans (W5_v3 m ρ c)

theorem W6_arg3 : W6 m ρ c (Proc.devRef .tc main_arg3) = A3 m c := (W6_of_ne m ρ c main_arg3 (by decide)).trans (W5_arg3 m ρ c)

theorem W6_arg4 : W6 m ρ c (Proc.devRef .tc main_arg4) = A4 m c := (W6_of_ne m ρ c main_arg4 (by decide)).trans (W5_arg4 m ρ c)

theorem W6_arg5 : W6 m ρ c (Proc.devRef .tc main_arg5) = A5 m c := (W6_of_ne m ρ c main_arg5 (by decide)).trans (W5_arg5 m ρ c)

/-! ## W7: agg = segment_sum(msg, d), and the bias as a row -/

theorem W7_v42 : W7 m ρ c (Proc.devRef .tc main_v42) = Cert.ReferenceIdeal.ReadP.val_main_v43 (F := Ideal) (A0 m c) (A1 m c) (A2 m c) := by
  have h0 := W6_v7 m ρ c
  have h1 := W6_v39 m ρ c
  show StableHlo.after hostOps2 (W6 m ρ c) (Proc.devRef .tc main_v42) = _
  generalize W6 m ρ c = V at h0 h1 ⊢
  after_results_simp
  rw [h0, h1]
  rfl

theorem W7_v43 : W7 m ρ c (Proc.devRef .tc main_v43) = Cert.ReferenceIdeal.ReadP.val_main_v44 (F := Ideal) (A3 m c) := by
  have h0 := W6_arg3 m ρ c
  show StableHlo.after hostOps2 (W6 m ρ c) (Proc.devRef .tc main_v43) = _
  generalize W6 m ρ c = V at h0 ⊢
  after_results_simp
  rw [h0]
  exact ColumnForms.shapeCast_a_1a_eq_broadcastInDim _ _ _

theorem W7_v1 : W7 m ρ c (Proc.devRef .tc main_v1) = Cert.ReferenceIdeal.ReadP.val_main_v1 (F := Ideal) (A1 m c) := by
  have h0 := W6_v1 m ρ c
  show StableHlo.after hostOps2 (W6 m ρ c) (Proc.devRef .tc main_v1) = _
  generalize W6 m ρ c = V at h0 ⊢
  after_results_simp
  exact h0

theorem W7_v3 : W7 m ρ c (Proc.devRef .tc main_v3) = Cert.ReferenceIdeal.ReadP.val_main_v3 (F := Ideal) (A1 m c) := by
  have h0 := W6_v3 m ρ c
  show StableHlo.after hostOps2 (W6 m ρ c) (Proc.devRef .tc main_v3) = _
  generalize W6 m ρ c = V at h0 ⊢
  after_results_simp
  exact h0

theorem W7_arg4 : W7 m ρ c (Proc.devRef .tc main_arg4) = A4 m c := by
  have h0 := W6_arg4 m ρ c
  show StableHlo.after hostOps2 (W6 m ρ c) (Proc.devRef .tc main_arg4) = _
  generalize W6 m ρ c = V at h0 ⊢
  after_results_simp
  exact h0

theorem W7_arg5 : W7 m ρ c (Proc.devRef .tc main_arg5) = A5 m c := by
  have h0 := W6_arg5 m ρ c
  show StableHlo.after hostOps2 (W6 m ρ c) (Proc.devRef .tc main_arg5) = _
  generalize W6 m ρ c = V at h0 ⊢
  after_results_simp
  exact h0

/-! ## W8: after the third launch, max(agg + b1, 0) -/

theorem W8_v44 : W8 m ρ c (Proc.devRef .tc main_v44) = Cert.ReferenceIdeal.ReadP.val_main_v47 (F := Ideal) (A0 m c) (A1 m c) (A2 m c) (A3 m c) :=
  ((W8_arr m ρ c 2).trans (Region2.final (V7 m ρ) c)).trans (by
    show Cert.ReferenceIdeal.Stage.biasRelu (W7 m ρ c (Proc.devRef .tc main_v42)) (W7 m ρ c (Proc.devRef .tc main_v43)) = _
    rw [W7_v42, W7_v43]
    exact (Cert.ReferenceIdeal.Stage.v47_eq _ _ _ _).symm)

theorem W8_v1 : W8 m ρ c (Proc.devRef .tc main_v1) = Cert.ReferenceIdeal.ReadP.val_main_v1 (F := Ideal) (A1 m c) := (W8_of_ne m ρ c main_v1 (by decide)).trans (W7_v1 m ρ c)

theorem W8_v3 : W8 m ρ c (Proc.devRef .tc main_v3) = Cert.ReferenceIdeal.ReadP.val_main_v3 (F := Ideal) (A1 m c) := (W8_of_ne m ρ c main_v3 (by decide)).trans (W7_v3 m ρ c)

theorem W8_arg4 : W8 m ρ c (Proc.devRef .tc main_arg4) = A4 m c := (W8_of_ne m ρ c main_arg4 (by decide)).trans (W7_arg4 m ρ c)

theorem W8_arg5 : W8 m ρ c (Proc.devRef .tc main_arg5) = A5 m c := (W8_of_ne m ρ c main_arg5 (by decide)).trans (W7_arg5 m ρ c)

/-! ## W9: after the fourth launch, the second layer's product -/

theorem W9_v45 : W9 m ρ c (Proc.devRef .tc main_v45) = Cert.ReferenceIdeal.ReadP.val_main_v48 (F := Ideal) (A0 m c) (A1 m c) (A2 m c) (A3 m c) (A4 m c) :=
  ((W9_arr m ρ c 2).trans (Region3.final (V8 m ρ) c)).trans (by
    show Cert.ReferenceIdeal.Stage.prod2 (W8 m ρ c (Proc.devRef .tc main_v44)) (W8 m ρ c (Proc.devRef .tc main_arg4)) = _
    rw [W8_v44, W8_arg4]
    exact (Cert.ReferenceIdeal.Stage.v48_eq _ _ _ _ _).symm)

theorem W9_v1 : W9 m ρ c (Proc.devRef .tc main_v1) = Cert.ReferenceIdeal.ReadP.val_main_v1 (F := Ideal) (A1 m c) := (W9_of_ne m ρ c main_v1 (by decide)).trans (W8_v1 m ρ c)

theorem W9_v3 : W9 m ρ c (Proc.devRef .tc main_v3) = Cert.ReferenceIdeal.ReadP.val_main_v3 (F := Ideal) (A1 m c) := (W9_of_ne m ρ c main_v3 (by decide)).trans (W8_v3 m ρ c)

theorem W9_arg5 : W9 m ρ c (Proc.devRef .tc main_arg5) = A5 m c := (W9_of_ne m ρ c main_arg5 (by decide)).trans (W8_arg5 m ρ c)

/-! ## W10 – W12: the second layer's host stretches, as W3 – W5 -/

theorem W10_v47 : W10 m ρ c (Proc.devRef .tc main_v47) = Cert.ReferenceIdeal.ReadP.val_main_v50 (F := Ideal) (A1 m c) := by
  have h0 := W9_v1 m ρ c
  show StableHlo.after hostOps4 (W9 m ρ c) (Proc.devRef .tc main_v47) = _
  generalize W9 m ρ c = V at h0 ⊢
  after_results_simp
  finish_results
  rw [h0]
  rfl

theorem W10_v48 : W10 m ρ c (Proc.devRef .tc main_v48) = Cert.ReferenceIdeal.ReadP.val_main_v51 (F := Ideal) (A1 m c) := by
  have h0 := W9_v3 m ρ c
  show StableHlo.after hostOps4 (W9 m ρ c) (Proc.devRef .tc main_v48) = _
  generalize W9 m ρ c = V at h0 ⊢
  after_results_simp
  finish_results
  rw [h0]
  rfl

theorem W10_v54 : W10 m ρ c (Proc.devRef .tc main_v54) = Cert.ReferenceIdeal.ReadP.val_main_v57 (F := Ideal) (A1 m c) := by
  have h0 := W9_v3 m ρ c
  show StableHlo.after hostOps4 (W9 m ρ c) (Proc.devRef .tc main_v54) = _
  generalize W9 m ρ c = V at h0 ⊢
  after_results_simp
  finish_results
  rw [h0]
  rfl

theorem W10_v55 : W10 m ρ c (Proc.devRef .tc main_v55) = Cert.ReferenceIdeal.ReadP.val_main_v58 (F := Ideal) (A1 m c) := by
  have h0 := W9_v3 m ρ c
  show StableHlo.after hostOps4 (W9 m ρ c) (Proc.devRef .tc main_v55) = _
  generalize W9 m ρ c = V at h0 ⊢
  after_results_simp
  finish_results
  rw [h0]
  rfl

theorem W10_cst_12 : W10 m ρ c (Proc.devRef .tc main_cst_12) = Cert.ReferenceIdeal.ReadP.val_main_cst_12 (F := Ideal) := by
  show StableHlo.after hostOps4 (W9 m ρ c) (Proc.devRef .tc main_cst_12) = _
  generalize W9 m ρ c = V
  after_results_simp
  rfl

theorem W10_v45 : W10 m ρ c (Proc.devRef .tc main_v45) = Cert.ReferenceIdeal.ReadP.val_main_v48 (F := Ideal) (A0 m c) (A1 m c) (A2 m c) (A3 m c) (A4 m c) := by
  have h0 := W9_v45 m ρ c
  show StableHlo.after hostOps4 (W9 m ρ c) (Proc.devRef .tc main_v45) = _
  generalize W9 m ρ c = V at h0 ⊢
  after_results_simp
  exact h0

theorem W10_arg5 : W10 m ρ c (Proc.devRef .tc main_arg5) = A5 m c := by
  have h0 := W9_arg5 m ρ c
  show StableHlo.after hostOps4 (W9 m ρ c) (Proc.devRef .tc main_arg5) = _
  generalize W9 m ρ c = V at h0 ⊢
  after_results_simp
  exact h0

theorem W11_v56 : W11 m ρ c (Proc.devRef .tc main_v56) = Cert.ReferenceIdeal.ReadP.val_main_v59 (F := Ideal) (A1 m c) := by
  have h0 := W10_v54 m ρ c
  have h1 := W10_v55 m ρ c
  have h2 := W10_cst_12 m ρ c
  show StableHlo.after hostOps4_1 (W10 m ρ c) (Proc.devRef .tc main_v56) = _
  generalize W10 m ρ c = V at h0 h1 h2 ⊢
  after_results_simp
  refine Eq.trans (b := select (V (Proc.devRef .tc main_v54)) (V (Proc.devRef .tc main_v55)) (broadcastInDim S50000 ![] bcast_S_S50000 (id (V (Proc.devRef .tc main_cst_12))))) rfl ?_
  rw [h0, h1, h2]
  rfl

theorem W11_v47 : W11 m ρ c (Proc.devRef .tc main_v47) = Cert.ReferenceIdeal.ReadP.val_main_v50 (F := Ideal) (A1 m c) := by
  have h0 := W10_v47 m ρ c
  show StableHlo.after hostOps4_1 (W10 m ρ c) (Proc.devRef .tc main_v47) = _
  generalize W10 m ρ c = V at h0 ⊢
  after_results_simp
  exact h0

theorem W11_v48 : W11 m ρ c (Proc.devRef .tc main_v48) = Cert.ReferenceIdeal.ReadP.val_main_v51 (F := Ideal) (A1 m c) := by
  have h0 := W10_v48 m ρ c
  show StableHlo.after hostOps4_1 (W10 m ρ c) (Proc.devRef .tc main_v48) = _
  generalize W10 m ρ c = V at h0 ⊢
  after_results_simp
  exact h0

theorem W11_v45 : W11 m ρ c (Proc.devRef .tc main_v45) = Cert.ReferenceIdeal.ReadP.val_main_v48 (F := Ideal) (A0 m c) (A1 m c) (A2 m c) (A3 m c) (A4 m c) := by
  have h0 := W10_v45 m ρ c
  show StableHlo.after hostOps4_1 (W10 m ρ c) (Proc.devRef .tc main_v45) = _
  generalize W10 m ρ c = V at h0 ⊢
  after_results_simp
  exact h0

theorem W11_arg5 : W11 m ρ c (Proc.devRef .tc main_arg5) = A5 m c := by
  have h0 := W10_arg5 m ρ c
  show StableHlo.after hostOps4_1 (W10 m ρ c) (Proc.devRef .tc main_arg5) = _
  generalize W10 m ρ c = V at h0 ⊢
  after_results_simp
  exact h0

theorem W12_v71 : W12 m ρ c (Proc.devRef .tc main_v71) = Cert.ReferenceIdeal.ReadP.val_main_v74 (F := Ideal) (A1 m c) := by
  have h0 := W11_v56 m ρ c
  have h1 := W11_v47 m ρ c
  have h2 := W11_v48 m ρ c
  show StableHlo.after hostOps4_2 (W11 m ρ c) (Proc.devRef .tc main_v71) = _
  generalize W11 m ρ c = V at h0 h1 h2 ⊢
  after_results_simp
  rw [h0, h1, h2]
  rfl

theorem W12_v78 : W12 m ρ c (Proc.devRef .tc main_v78) = Cert.ReferenceIdeal.ReadP.val_main_v81 (F := Ideal) (A0 m c) (A1 m c) (A2 m c) (A3 m c) (A4 m c) := by
  have h0 := W11_v45 m ρ c
  have h1 := W11_v47 m ρ c
  show StableHlo.after hostOps4_2 (W11 m ρ c) (Proc.devRef .tc main_v78) = _
  generalize W11 m ρ c = V at h0 h1 ⊢
  after_results_simp
  rw [h0, h1]
  rfl

/-- The normalisation column is the reshape of the normalisation vector. -/
theorem W12_v79_of_v71 : W12 m ρ c (Proc.devRef .tc main_v79) = shapeCast _ (W12 m ρ c (Proc.devRef .tc main_v71)) shapeCasts_S850000_S850000x1 := by
  show StableHlo.after hostOps4_2 (W11 m ρ c) (Proc.devRef .tc main_v79) = shapeCast _ (StableHlo.after hostOps4_2 (W11 m ρ c) (Proc.devRef .tc main_v71)) _
  generalize W11 m ρ c = V
  after_results_simp
theorem W12_v79 : W12 m ρ c (Proc.devRef .tc main_v79) = Cert.ReferenceIdeal.ReadP.val_main_v82 (F := Ideal) (A1 m c) := by
  rw [W12_v79_of_v71, W12_v71]
  exact ColumnForms.shapeCast_a_a1_eq_broadcastInDim _ _ _

theorem W12_v48 : W12 m ρ c (Proc.devRef .tc main_v48) = Cert.ReferenceIdeal.ReadP.val_main_v51 (F := Ideal) (A1 m c) := by
  have h0 := W11_v48 m ρ c
  show StableHlo.after hostOps4_2 (W11 m ρ c) (Proc.devRef .tc main_v48) = _
  generalize W11 m ρ c = V at h0 ⊢
  after_results_simp
  exact h0

theorem W12_arg5 : W12 m ρ c (Proc.devRef .tc main_arg5) = A5 m c := by
  have h0 := W11_arg5 m ρ c
  show StableHlo.after hostOps4_2 (W11 m ρ c) (Proc.devRef .tc main_arg5) = _
  generalize W11 m ρ c = V at h0 ⊢
  after_results_simp
  exact h0

/-! ## W13: after the fifth launch -/

theorem W13_v80 : W13 m ρ c (Proc.devRef .tc main_v80) = Cert.ReferenceIdeal.ReadP.val_main_v84 (F := Ideal) (A0 m c) (A1 m c) (A2 m c) (A3 m c) (A4 m c) :=
  ((W13_arr m ρ c 2).trans (Region4.final (V12 m ρ) c)).trans (by
    show Cert.ReferenceIdeal.Stage.scale2 (W12 m ρ c (Proc.devRef .tc main_v78)) (W12 m ρ c (Proc.devRef .tc main_v79)) = _
    rw [W12_v78, W12_v79]
    exact (Cert.ReferenceIdeal.Stage.v84_eq _ _ _ _ _).symm)

theorem W13_v48 : W13 m ρ c (Proc.devRef .tc main_v48) = Cert.ReferenceIdeal.ReadP.val_main_v51 (F := Ideal) (A1 m c) := (W13_of_ne m ρ c main_v48 (by decide)).trans (W12_v48 m ρ c)

theorem W13_arg5 : W13 m ρ c (Proc.devRef .tc main_arg5) = A5 m c := (W13_of_ne m ρ c main_arg5 (by decide)).trans (W12_arg5 m ρ c)

/-! ## W14: the second layer's aggregate and its bias row -/

theorem W14_v83 : W14 m ρ c (Proc.devRef .tc main_v83) = Cert.ReferenceIdeal.ReadP.val_main_v87 (F := Ideal) (A0 m c) (A1 m c) (A2 m c) (A3 m c) (A4 m c) := by
  have h0 := W13_v48 m ρ c
  have h1 := W13_v80 m ρ c
  show StableHlo.after hostOps5 (W13 m ρ c) (Proc.devRef .tc main_v83) = _
  generalize W13 m ρ c = V at h0 h1 ⊢
  after_results_simp
  rw [h0, h1]
  rfl

theorem W14_v84 : W14 m ρ c (Proc.devRef .tc main_v84) = Cert.ReferenceIdeal.ReadP.val_main_v88 (F := Ideal) (A5 m c) := by
  have h0 := W13_arg5 m ρ c
  show StableHlo.after hostOps5 (W13 m ρ c) (Proc.devRef .tc main_v84) = _
  generalize W13 m ρ c = V at h0 ⊢
  after_results_simp
  rw [h0]
  exact ColumnForms.shapeCast_a_1a_eq_broadcastInDim _ _ _

/-! ## The result -/

/-- At the last boundary the result buffer holds the reference's last stage of the six arguments. -/
theorem result : W15 m ρ c (Proc.devRef .tc main_v85)
    = Cert.ReferenceIdeal.ReadP.val_main_v90 (F := Ideal) (A0 m c) (A1 m c) (A2 m c) (A3 m c) (A4 m c) (A5 m c) :=
  ((W15_arr m ρ c 2).trans (Region5.final (V14 m ρ) c)).trans (by
    show Cert.ReferenceIdeal.Stage.bias (W14 m ρ c (Proc.devRef .tc main_v83)) (W14 m ρ c (Proc.devRef .tc main_v84)) = _
    rw [W14_v83, W14_v84]
    exact (Cert.ReferenceIdeal.Stage.v90_eq _ _ _ _ _ _).symm)

end Cert.KernelIdeal.Fold

end
-- ==== Proof.lean ====
/-
  The two-layer graph convolution: the kernel program against its jnp reference, on the extended reals.

  Both programs compute, per layer,
      h = x · W,    msg = h[s] · norm[:,None],    agg = segment_sum(msg, d),    out = agg + b
  (after the first layer also max(out, 0)), with s, d the edge list extended by self-loops and
  norm = dinv[s] · dinv[d], dinv = 1/sqrt(deg) where the degree is positive and 0 elsewhere.  The kernel
  program runs the product, the scaling and the bias step as three tiled kernel launches per layer and
  everything else — the slices, the concatenations, the degree count, the gathers, the segment sums — as the
  same host operations as the reference.  On the extended reals the narrowing of the product's operands to
  bf16 is the identity and the accumulation into a zero accumulator is the plain sum, so each launch leaves in
  its output array exactly the reference's stage of the launch's operands; no law that needs finiteness is
  used, and the precondition is never opened.

  The modules:  Payloads (the six kernel bodies' stored values read at an index),  RefStages (the reference's
  product, scaling and bias stages as one function each of their operands),  Region0 … Region5 (what each launch
  leaves in its output array: the blocks cover it),  Fold (the buffer contents at every segment boundary,
  identified with the reference's stages),  NamedRun (the kernel program's run with its result buffer named),
  and the two reference modules RefRunPatched / RefReadPatched (the reference's run, and its stages one
  operation at a time).
-/
import proofs.«165991_j7730941133132_1_alg».proof.Defs
import proofs.«165991_j7730941133132_1_alg».proof.Proof.Gen.Kernel
import proofs.«165991_j7730941133132_1_alg».proof.Proof.Gen.Kernel.Skeleton
import proofs.«165991_j7730941133132_1_alg».proof.Proof.Gen.Kernel.Launch
import proofs.«165991_j7730941133132_1_alg».proof.Proof.Gen.Kernel.Points
import proofs.«165991_j7730941133132_1_alg».proof.Proof.Gen.Kernel.Frame
import proofs.«165991_j7730941133132_1_alg».proof.Proof.Gen.KernelIdeal
import proofs.«165991_j7730941133132_1_alg».proof.Proof.Gen.KernelIdeal.Skeleton
import proofs.«165991_j7730941133132_1_alg».proof.Proof.Gen.KernelIdeal.Launch
import proofs.«165991_j7730941133132_1_alg».proof.Proof.Gen.KernelIdeal.Points
import proofs.«165991_j7730941133132_1_alg».proof.Proof.Gen.KernelIdeal.Frame
import proofs.«165991_j7730941133132_1_alg».proof.Proof.Gen.ReferenceIdeal
import proofs.«165991_j7730941133132_1_alg».proof.Proof.Gen.Pre_finite_inputs
import proofs.«165991_j7730941133132_1_alg».proof.Proof.RefRunPatched
import proofs.«165991_j7730941133132_1_alg».proof.Proof.RefReadPatched
import proofs.«165991_j7730941133132_1_alg».proof.Proof.NamedRun
import proofs.«165991_j7730941133132_1_alg».proof.Proof.Fold
import Idealize.ShloMosaic.Adequacy
import Idealize.ShloMosaic.Init

noncomputable section

namespace Cert.Proof.GcnClaims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- The kernel program's result array ends at the reference's last stage of the kernel's arguments (the fold over
    the segment boundaries); the reference's ends at the same stage of its own arguments, which agree. -/
theorem algebraic : Cert.algebraic_KernelIdeal_ReferenceIdeal := by
  intro m ρ m' ρ' _ hagree
  refine ⟨fun c => Cert.ReferenceIdeal.ReadP.val_main_v90 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result m ρ c), (h c).2⟩)
      (Cert.KernelIdeal.NamedRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v90_eq, (hagree c).1, (hagree c).2.1, (hagree c).2.2.1, (hagree c).2.2.2.1,
      (hagree c).2.2.2.2.1, (hagree c).2.2.2.2.2]

end Cert.Proof.GcnClaims

namespace Cert.Proof

theorem claim : Cert.Claim := ⟨Cert.Kernel.Gen.facts, Cert.KernelIdeal.Gen.facts, Cert.ReferenceIdeal.Gen.facts, Cert.Pre_finite_inputs.Gen.facts,
  GcnClaims.frame_k, GcnClaims.frame_ki, GcnClaims.frame_ri, GcnClaims.preserves, GcnClaims.algebraic⟩

end Cert.Proof

end
